-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S5000x1 : Shape := ⟨2, ![5000, 1]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩

abbrev nBuf : Space → Nat
  | .hbm => 79
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S100000x64, .f32⟩
  | .hbm, ⟨63, _⟩ => ⟨S100000x40, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x40, .f32⟩
  | .hbm, ⟨73, _⟩ => ⟨S1700000x40, .f32⟩
  | .hbm, ⟨74, _⟩ => ⟨S_, .f32⟩
  | .hbm, ⟨75, _⟩ => ⟨S100000x40, .f32⟩
  | .hbm, ⟨76, _⟩ => ⟨S1700000x1, .i32⟩
  | .hbm, ⟨77, _⟩ => ⟨S100000x40, .f32⟩
  | .hbm, ⟨78, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S5000x40, .f32⟩
  | .local _ .vmem, ⟨26, _⟩ => ⟨S5000x40, .f32⟩
  | .local _ .vmem, ⟨27, _⟩ => ⟨S5000x40, .f32⟩
  | .local _ .vmem, ⟨28, _⟩ => ⟨S5000x40, .f32⟩
  | .local _ .vmem, ⟨29, _⟩ => ⟨S40, .f32⟩
  | .local _ .vmem, ⟨30, _⟩ => ⟨S5000x40, .f32⟩
  | .local _ .vmem, ⟨31, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![340], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![340], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  broadcasts_S5000x1_S5000x40 : S5000x1.Broadcasts S5000x40
  bcast_S_S100000x40 : S_.BroadcastsInDim S100000x40 (![] : Fin 0 → Fin S100000x40.rank)
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1700000x64.size a
  hwx1_0 : ∀ i : grid1.Coords, EltTy.bits .f32 = 32 ∨ (Rect.block (s := S1700000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1700000x1.size a
  hwx1_1 : ∀ i : grid1.Coords, EltTy.bits .f32 = 32 ∨ (Rect.block (s := S1700000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S1700000x64.size a
  hwx1_2 : ∀ i : grid1.Coords, EltTy.bits .f32 = 32 ∨ (Rect.block (s := S1700000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x40.size a ≤ S1700000x40.size a
  hwx4_0 : ∀ i : grid4.Coords, EltTy.bits .f32 = 32 ∨ (Rect.block (s := S1700000x40) S5000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S1700000x1.size a
  hwx4_1 : ∀ i : grid4.Coords, EltTy.bits .f32 = 32 ∨ (Rect.block (s := S1700000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S1700000x40.size a
  hwx4_2 : ∀ i : grid4.Coords, EltTy.bits .f32 = 32 ∨ (Rect.block (s := S1700000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S40.size a ≤ S40.size a
  hwx5_1 : ∀ i : grid5.Coords, EltTy.bits .f32 = 32 ∨ (Rect.block (s := S40) S40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S5000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v55) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x40, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x40, .f32⟩
  | 112 => ⟨S1700000x1, .f32⟩
  | 113 => ⟨S1700000x40, .f32⟩
  | 114 => ⟨S1700000x40, .f32⟩
  | 115 => ⟨S_, .f32⟩
  | 116 => ⟨S100000x40, .f32⟩
  | 117 => ⟨S1700000x1, .i32⟩
  | 118 => ⟨S100000x40, .f32⟩
  | 119 => ⟨S1x40, .f32⟩
  | 120 => ⟨S100000x40, .f32⟩
  | 121 => ⟨S100000x40, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x40, .f32⟩
  | 1 => ⟨S100000x40, .f32⟩
  | 2 => ⟨S100000x40, .f32⟩
  | 3 => ⟨S_, .f32⟩
  | 4 => ⟨S100000, .f32⟩
  | 5 => ⟨S100000x1, .f32⟩
  | 6 => ⟨S100000x1, .f32⟩
  | 7 => ⟨S100000x40, .f32⟩
  | 8 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.RefOps.lean ====
/-
  The reference program's 131 host operations cut into fourteen consecutive stretches.

  The stretches are: the edge lists, the first dense product and the degrees with their mask and inverse square root;
  the guarded selection; the edges' normalisation; the first layer up to its biased sums; the rectification; the second
  dense product; the degrees again; the guarded selection again; the normalisation again; the second layer up to its
  biased sums; the log-softmax in four steps (the row maxima; the shifted array; the row sums of its exponentials; their logarithm
  subtracted). The list is the program's own, stretch after stretch.
-/
import proofs.«143910_j5222680232345_1_alg».proof.Proof.RunP
import Idealize.ShloMosaic.Lib.StableHlo.Run
import Idealize.ShloMosaic.Lib.Pipeline.Frame
import Idealize.ShloMosaic.PureOps.Ideal

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

abbrev opsA2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

abbrev opsB : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

abbrev opsC : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

abbrev opsC2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

abbrev opsD : List (HloOp τ sig (Elt F)) :=
  [ binary main_v47 main_arg4 main_v48 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]

abbrev opsE : List (HloOp τ sig (Elt F)) :=
  [ nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32) ]

abbrev opsE2 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select ]

abbrev opsF : List (HloOp τ sig (Elt F)) :=
  [ nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)) ]

abbrev opsG : List (HloOp τ sig (Elt F)) :=
  [ nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x40 ![0, 1] bcast_S1700000x1_S1700000x40_0_1 : (⟨S1700000x1, .f32⟩ : BufTy).Contents (Elt F) → (⟨S1700000x40, .f32⟩ : BufTy).Contents (Elt F)),
    binary main_v78 main_v80 main_v81 (mulf : (⟨S1700000x40, .f32⟩ : BufTy).Contents (Elt F) → (⟨S1700000x40, .f32⟩ : BufTy).Contents (Elt F) → (⟨S1700000x40, .f32⟩ : BufTy).Contents (Elt F)),
    nullary main_cst_19 (constant S_ .f32 0x00000000#32),
    unary main_cst_19 main_v82 (broadcastInDim S100000x40 ![] bcast_S_S100000x40 : (⟨S_, .f32⟩ : BufTy).Contents (Elt F) → (⟨S100000x40, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v85 (broadcastInDim S1x40 ![1] bcast_S40_S1x40_1 : (⟨S40, .f32⟩ : BufTy).Contents (Elt F) → (⟨S1x40, .f32⟩ : BufTy).Contents (Elt F)),
    unary main_v85 main_v86 (broadcastInDim S100000x40 ![0, 1] bcast_S1x40_S100000x40_0_1 : (⟨S1x40, .f32⟩ : BufTy).Contents (Elt F) → (⟨S100000x40, .f32⟩ : BufTy).Contents (Elt F)),
    binary main_v84 main_v86 main_v87 (addf : (⟨S100000x40, .f32⟩ : BufTy).Contents (Elt F) → (⟨S100000x40, .f32⟩ : BufTy).Contents (Elt F) → (⟨S100000x40, .f32⟩ : BufTy).Contents (Elt F)) ]

abbrev opsH1 : List (HloOp τ sig (Elt F)) :=
  [ TRef.nullary (TRef.of (T := ⟨S_, .f32⟩) main_call3_cst) (constant S_ .f32 0xFF800000#32),
    TRef.binary (TRef.of (T := ⟨S100000x40, .f32⟩) main_v87) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

abbrev opsH2 : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v87) (TRef.of (T := ⟨S100000x40, .f32⟩) main_call3_v4) (TRef.of (T := ⟨S100000x40, .f32⟩) main_call3_v5) subf ]

abbrev opsH3 : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0) ]

abbrev opsH4 : List (HloOp τ sig (Elt F)) :=
  [ TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v88) subf ]

set_option maxRecDepth 65536 in
/-- The program's operations are the stretches in order. -/
theorem ops_split : (Cert.ReferenceIdeal.ValueP.ops (F := F))
    = opsA ++ (opsA2 ++ (opsB ++ (opsC ++ (opsC2 ++ (opsD ++ (opsE ++ (opsE2 ++ (opsF ++ (opsG ++ (opsH1 ++ (opsH2 ++ (opsH3 ++ (opsH4))))))))))))) := rfl

/-- The fold over the whole line is the fold over the stretches in turn. -/
theorem after_ops (V : Valuation τ sig (Elt F)) : StableHlo.after (Cert.ReferenceIdeal.ValueP.ops (F := F)) V
    = StableHlo.after opsH4 (StableHlo.after opsH3 (StableHlo.after opsH2 (StableHlo.after opsH1 (StableHlo.after opsG (StableHlo.after opsF (StableHlo.after opsE2 (StableHlo.after opsE (StableHlo.after opsD (StableHlo.after opsC2 (StableHlo.after opsC (StableHlo.after opsB (StableHlo.after opsA2 (StableHlo.after opsA (V)))))))))))))) := by
  rw [ops_split, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]

end Cert.ReferenceIdeal.RefRun

end
-- ==== Proof.RefRun.lean ====
/-
  The reference program's run, with its result at the staged form of the reference's own operations.

  The reference is one straight line of 131 host operations. Run from a memory with zero counters it terminates
  without a fault, every buffer ending at the fold of the operations' results over the launch contents. The fold is
  read here stretch by stretch, each stretch's results named by the reference's stages of the arguments, so that no
  stage is ever written out more than once; the operations of a called function write through typed references, whose
  transport along an equation of buffer types is the identity. The argument arrays are written by no operation.
-/
import proofs.«143910_j5222680232345_1_alg».proof.Proof.ReadP
import proofs.«143910_j5222680232345_1_alg».proof.Proof.RefOps
import Idealize.ShloMosaic.Lib.StableHlo.Run
import Idealize.ShloMosaic.Lib.Pipeline.Frame
import Idealize.ShloMosaic.PureOps.Ideal

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.ReferenceIdeal.ReadP

/-! ## The typed references of the called functions -/

/-- The guarded selection writes through typed references; their transport is the identity. -/
theorem where1_transport {F : FTy → Type} [FloatOps F] (a0 : (⟨S100000, .i1⟩ : BufTy).Contents (Elt F)) (a1 : (⟨S100000, .f32⟩ : BufTy).Contents (Elt F)) (a2 : (⟨S_, .f32⟩ : BufTy).Contents (Elt F)) :
    (TRef.of (sig := sig) (T := ⟨S100000, .f32⟩) main_v15).toBuf (Val := Elt F) ((select) ((TRef.of (sig := sig) (T := ⟨S100000, .i1⟩) main_v13).ofBuf (Val := Elt F) a0) ((TRef.of (sig := sig) (T := ⟨S100000, .f32⟩) main_v14).ofBuf (Val := Elt F) a1) ((TRef.of (sig := sig) (T := ⟨S100000, .f32⟩) main_call0_v1).ofBuf (Val := Elt F) ((TRef.of (sig := sig) (T := ⟨S100000, .f32⟩) main_call0_v1).toBuf (Val := Elt F) (((broadcastInDim S100000 ![] bcast_S_S100000)) ((TRef.of (sig := sig) (T := ⟨S_, .f32⟩) main_call0_v0).ofBuf (Val := Elt F) ((TRef.of (sig := sig) (T := ⟨S_, .f32⟩) main_call0_v0).toBuf (Val := Elt F) ((id) ((TRef.of (sig := sig) (T := ⟨S_, .f32⟩) main_cst_2).ofBuf (Val := Elt F) a2))))))))
    = (select) a0 a1 (((broadcastInDim S100000 ![] bcast_S_S100000)) ((id) a2)) := rfl

/-- The rectification writes through typed references; their transport is the identity. -/
theorem relu_transport {F : FTy → Type} [FloatOps F] (a0 : (⟨S100000x64, .f32⟩ : BufTy).Contents (Elt F)) :
    (TRef.of (sig := sig) (T := ⟨S100000x64, .f32⟩) main_v47).toBuf (Val := Elt F) ((maximumf) ((TRef.of (sig := sig) (T := ⟨S100000x64, .f32⟩) main_v46).ofBuf (Val := Elt F) a0) ((TRef.of (sig := sig) (T := ⟨S100000x64, .f32⟩) main_call1_v0).ofBuf (Val := Elt F) ((TRef.of (sig := sig) (T := ⟨S100000x64, .f32⟩) main_call1_v0).toBuf (Val := Elt F) (((broadcastInDim S100000x64 ![] bcast_S_S100000x64)) ((TRef.of (sig := sig) (T := ⟨S_, .f32⟩) main_call1_cst).ofBuf (Val := Elt F) ((TRef.of (sig := sig) (T := ⟨S_, .f32⟩) main_call1_cst).toBuf (Val := Elt F) (((constant S_ .f32 0x00000000#32)))))))))
    = (maximumf) a0 (((broadcastInDim S100000x64 ![] bcast_S_S100000x64)) (((constant S_ .f32 0x00000000#32)))) := rfl

/-- The guarded selection, again. -/
theorem where2_transport {F : FTy → Type} [FloatOps F] (a0 : (⟨S100000, .i1⟩ : BufTy).Contents (Elt F)) (a1 : (⟨S100000, .f32⟩ : BufTy).Contents (Elt F)) (a2 : (⟨S_, .f32⟩ : BufTy).Contents (Elt F)) :
    (TRef.of (sig := sig) (T := ⟨S100000, .f32⟩) main_v56).toBuf (Val := Elt F) ((select) ((TRef.of (sig := sig) (T := ⟨S100000, .i1⟩) main_v54).ofBuf (Val := Elt F) a0) ((TRef.of (sig := sig) (T := ⟨S100000, .f32⟩) main_v55).ofBuf (Val := Elt F) a1) ((TRef.of (sig := sig) (T := ⟨S100000, .f32⟩) main_call2_v1).ofBuf (Val := Elt F) ((TRef.of (sig := sig) (T := ⟨S100000, .f32⟩) main_call2_v1).toBuf (Val := Elt F) (((broadcastInDim S100000 ![] bcast_S_S100000)) ((TRef.of (sig := sig) (T := ⟨S_, .f32⟩) main_call2_v0).ofBuf (Val := Elt F) ((TRef.of (sig := sig) (T := ⟨S_, .f32⟩) main_call2_v0).toBuf (Val := Elt F) ((id) ((TRef.of (sig := sig) (T := ⟨S_, .f32⟩) main_cst_12).ofBuf (Val := Elt F) a2))))))))
    = (select) a0 a1 (((broadcastInDim S100000 ![] bcast_S_S100000)) ((id) a2)) := rfl

/-! The row maxima are a fold over four million positions: no equation about them is left to unfolding. The transport
    of each typed reference of that step is stated on its own, over an arbitrary value, and rewritten with. -/

theorem tb_call3_cst {F : FTy → Type} [FloatOps F] (z : (⟨S_, .f32⟩ : BufTy).Contents (Elt F)) : (TRef.of (sig := sig) (T := ⟨S_, .f32⟩) main_call3_cst).toBuf (Val := Elt F) z = z := rfl
theorem ob_call3_cst {F : FTy → Type} [FloatOps F] (z : (⟨S_, .f32⟩ : BufTy).Contents (Elt F)) : (TRef.of (sig := sig) (T := ⟨S_, .f32⟩) main_call3_cst).ofBuf (Val := Elt F) z = z := rfl
theorem tb_v87 {F : FTy → Type} [FloatOps F] (z : (⟨S100000x40, .f32⟩ : BufTy).Contents (Elt F)) : (TRef.of (sig := sig) (T := ⟨S100000x40, .f32⟩) main_v87).toBuf (Val := Elt F) z = z := rfl
theorem ob_v87 {F : FTy → Type} [FloatOps F] (z : (⟨S100000x40, .f32⟩ : BufTy).Contents (Elt F)) : (TRef.of (sig := sig) (T := ⟨S100000x40, .f32⟩) main_v87).ofBuf (Val := Elt F) z = z := rfl
theorem tb_call3_v0 {F : FTy → Type} [FloatOps F] (z : (⟨S100000, .f32⟩ : BufTy).Contents (Elt F)) : (TRef.of (sig := sig) (T := ⟨S100000, .f32⟩) main_call3_v0).toBuf (Val := Elt F) z = z := rfl
theorem ob_call3_v0 {F : FTy → Type} [FloatOps F] (z : (⟨S100000, .f32⟩ : BufTy).Contents (Elt F)) : (TRef.of (sig := sig) (T := ⟨S100000, .f32⟩) main_call3_v0).ofBuf (Val := Elt F) z = z := rfl
theorem tb_call3_cst_0 {F : FTy → Type} [FloatOps F] (z : (⟨S_, .f32⟩ : BufTy).Contents (Elt F)) : (TRef.of (sig := sig) (T := ⟨S_, .f32⟩) main_call3_cst_0).toBuf (Val := Elt F) z = z := rfl
theorem ob_call3_cst_0 {F : FTy → Type} [FloatOps F] (z : (⟨S_, .f32⟩ : BufTy).Contents (Elt F)) : (TRef.of (sig := sig) (T := ⟨S_, .f32⟩) main_call3_cst_0).ofBuf (Val := Elt F) z = z := rfl
theorem tb_call3_v1 {F : FTy → Type} [FloatOps F] (z : (⟨S100000, .f32⟩ : BufTy).Contents (Elt F)) : (TRef.of (sig := sig) (T := ⟨S100000, .f32⟩) main_call3_v1).toBuf (Val := Elt F) z = z := rfl
theorem ob_call3_v1 {F : FTy → Type} [FloatOps F] (z : (⟨S100000, .f32⟩ : BufTy).Contents (Elt F)) : (TRef.of (sig := sig) (T := ⟨S100000, .f32⟩) main_call3_v1).ofBuf (Val := Elt F) z = z := rfl
theorem tb_call3_v2 {F : FTy → Type} [FloatOps F] (z : (⟨S100000, .f32⟩ : BufTy).Contents (Elt F)) : (TRef.of (sig := sig) (T := ⟨S100000, .f32⟩) main_call3_v2).toBuf (Val := Elt F) z = z := rfl
theorem ob_call3_v2 {F : FTy → Type} [FloatOps F] (z : (⟨S100000, .f32⟩ : BufTy).Contents (Elt F)) : (TRef.of (sig := sig) (T := ⟨S100000, .f32⟩) main_call3_v2).ofBuf (Val := Elt F) z = z := rfl

/-- The row maxima write through typed references; their transport is the identity. -/
theorem rowmax_transport {F : FTy → Type} [FloatOps F] (a0 : (⟨S100000x40, .f32⟩ : BufTy).Contents (Elt F)) :
    (TRef.of (sig := sig) (T := ⟨S100000, .f32⟩) main_call3_v2).toBuf (Val := Elt F) ((maximumf) ((TRef.of (sig := sig) (T := ⟨S100000, .f32⟩) main_call3_v1).ofBuf (Val := Elt F) ((TRef.of (sig := sig) (T := ⟨S100000, .f32⟩) main_call3_v1).toBuf (Val := Elt F) (((broadcastInDim S100000 ![] bcast_S_S100000)) ((TRef.of (sig := sig) (T := ⟨S_, .f32⟩) main_call3_cst_0).ofBuf (Val := Elt F) ((TRef.of (sig := sig) (T := ⟨S_, .f32⟩) main_call3_cst_0).toBuf (Val := Elt F) (((constant S_ .f32 0xFF800000#32)))))))) ((TRef.of (sig := sig) (T := ⟨S100000, .f32⟩) main_call3_v0).ofBuf (Val := Elt F) ((TRef.of (sig := sig) (T := ⟨S100000, .f32⟩) main_call3_v0).toBuf (Val := Elt F) (((fun x v => Host.reduce FloatOps.maximumf x v reducesTo_S100000x40_S100000_d1 h_S_)) ((TRef.of (sig := sig) (T := ⟨S100000x40, .f32⟩) main_v87).ofBuf (Val := Elt F) a0) ((TRef.of (sig := sig) (T := ⟨S_, .f32⟩) main_call3_cst).ofBuf (Val := Elt F) ((TRef.of (sig := sig) (T := ⟨S_, .f32⟩) main_call3_cst).toBuf (Val := Elt F) (((constant S_ .f32 0xFF800000#32)))))))))
    = (maximumf) (((broadcastInDim S100000 ![] bcast_S_S100000)) (((constant S_ .f32 0xFF800000#32)))) (((fun x v => Host.reduce FloatOps.maximumf x v reducesTo_S100000x40_S100000_d1 h_S_)) a0 (((constant S_ .f32 0xFF800000#32)))) := by
  repeat (first | rw [ob_v87] | rw [ob_call3_cst] | rw [tb_call3_cst] | rw [ob_call3_v0] | rw [tb_call3_v0])

/-- The shifted array, likewise. -/
theorem shift_transport {F : FTy → Type} [FloatOps F] (a0 : (⟨S100000x40, .f32⟩ : BufTy).Contents (Elt F)) (a1 : (⟨S100000, .f32⟩ : BufTy).Contents (Elt F)) :
    (TRef.of (sig := sig) (T := ⟨S100000x40, .f32⟩) main_call3_v5).toBuf (Val := Elt F) ((subf) ((TRef.of (sig := sig) (T := ⟨S100000x40, .f32⟩) main_v87).ofBuf (Val := Elt F) a0) ((TRef.of (sig := sig) (T := ⟨S100000x40, .f32⟩) main_call3_v4).ofBuf (Val := Elt F) ((TRef.of (sig := sig) (T := ⟨S100000x40, .f32⟩) main_call3_v4).toBuf (Val := Elt F) (((broadcastInDim S100000x40 ![0, 1] bcast_S100000x1_S100000x40_0_1)) ((TRef.of (sig := sig) (T := ⟨S100000x1, .f32⟩) main_call3_v3).ofBuf (Val := Elt F) ((TRef.of (sig := sig) (T := ⟨S100000x1, .f32⟩) main_call3_v3).toBuf (Val := Elt F) (((broadcastInDim S100000x1 ![0] bcast_S100000_S100000x1_0)) ((TRef.of (sig := sig) (T := ⟨S100000, .f32⟩) main_call3_v2).ofBuf (Val := Elt F) a1))))))))
    = (subf) a0 (((broadcastInDim S100000x40 ![0, 1] bcast_S100000x1_S100000x40_0_1)) (((broadcastInDim S100000x1 ![0] bcast_S100000_S100000x1_0)) a1)) := rfl

/-- The row sums of the exponentials, likewise. -/
theorem rowsum_transport {F : FTy → Type} [FloatOps F] (a0 : (⟨S100000x40, .f32⟩ : BufTy).Contents (Elt F)) :
    (TRef.of (sig := sig) (T := ⟨S100000x1, .f32⟩) main_call3_v8).toBuf (Val := Elt F) (((broadcastInDim S100000x1 ![0] bcast_S100000_S100000x1_0)) ((TRef.of (sig := sig) (T := ⟨S100000, .f32⟩) main_call3_v7).ofBuf (Val := Elt F) ((TRef.of (sig := sig) (T := ⟨S100000, .f32⟩) main_call3_v7).toBuf (Val := Elt F) (((fun x v => Host.reduceAdd x v reducesTo_S100000x40_S100000_d1 h_S_)) ((TRef.of (sig := sig) (T := ⟨S100000x40, .f32⟩) main_call3_v6).ofBuf (Val := Elt F) ((TRef.of (sig := sig) (T := ⟨S100000x40, .f32⟩) main_call3_v6).toBuf (Val := Elt F) ((Host.exp) ((TRef.of (sig := sig) (T := ⟨S100000x40, .f32⟩) main_call3_v5).ofBuf (Val := Elt F) a0)))) ((TRef.of (sig := sig) (T := ⟨S_, .f32⟩) main_call3_cst_1).ofBuf (Val := Elt F) ((TRef.of (sig := sig) (T := ⟨S_, .f32⟩) main_call3_cst_1).toBuf (Val := Elt F) (((constant S_ .f32 0x00000000#32)))))))))
    = ((broadcastInDim S100000x1 ![0] bcast_S100000_S100000x1_0)) (((fun x v => Host.reduceAdd x v reducesTo_S100000x40_S100000_d1 h_S_)) ((Host.exp) a0) (((constant S_ .f32 0x00000000#32)))) := rfl

/-- The logarithm of the row sums subtracted, likewise. -/
theorem logsub_transport {F : FTy → Type} [FloatOps F] (a0 : (⟨S100000x40, .f32⟩ : BufTy).Contents (Elt F)) (a1 : (⟨S100000x1, .f32⟩ : BufTy).Contents (Elt F)) :
    (TRef.of (sig := sig) (T := ⟨S100000x40, .f32⟩) main_v88).toBuf (Val := Elt F) ((subf) ((TRef.of (sig := sig) (T := ⟨S100000x40, .f32⟩) main_call3_v5).ofBuf (Val := Elt F) a0) ((TRef.of (sig := sig) (T := ⟨S100000x40, .f32⟩) main_call3_v10).ofBuf (Val := Elt F) ((TRef.of (sig := sig) (T := ⟨S100000x40, .f32⟩) main_call3_v10).toBuf (Val := Elt F) (((broadcastInDim S100000x40 ![0, 1] bcast_S100000x1_S100000x40_0_1)) ((TRef.of (sig := sig) (T := ⟨S100000x1, .f32⟩) main_call3_v9).ofBuf (Val := Elt F) ((TRef.of (sig := sig) (T := ⟨S100000x1, .f32⟩) main_call3_v9).toBuf (Val := Elt F) ((Host.log) ((TRef.of (sig := sig) (T := ⟨S100000x1, .f32⟩) main_call3_v8).ofBuf (Val := Elt F) a1))))))))
    = (subf) a0 (((broadcastInDim S100000x40 ![0, 1] bcast_S100000x1_S100000x40_0_1)) ((Host.log) a1)) := rfl

variable (m : (ℓ : Loc nD τ sig) → Buf (Elt Ideal) ℓ) (c : Dev nD)

/-- The buffers at launch, and after each stretch. -/
abbrev U0 : Valuation τ sig (Elt Ideal) := launchContents m c
abbrev U1 : Valuation τ sig (Elt Ideal) := StableHlo.after (opsA (F := Ideal)) (U0 m c)
abbrev U2 : Valuation τ sig (Elt Ideal) := StableHlo.after (opsA2 (F := Ideal)) (U1 m c)
abbrev U3 : Valuation τ sig (Elt Ideal) := StableHlo.after (opsB (F := Ideal)) (U2 m c)
abbrev U4 : Valuation τ sig (Elt Ideal) := StableHlo.after (opsC (F := Ideal)) (U3 m c)
abbrev U5 : Valuation τ sig (Elt Ideal) := StableHlo.after (opsC2 (F := Ideal)) (U4 m c)
abbrev U6 : Valuation τ sig (Elt Ideal) := StableHlo.after (opsD (F := Ideal)) (U5 m c)
abbrev U7 : Valuation τ sig (Elt Ideal) := StableHlo.after (opsE (F := Ideal)) (U6 m c)
abbrev U8 : Valuation τ sig (Elt Ideal) := StableHlo.after (opsE2 (F := Ideal)) (U7 m c)
abbrev U9 : Valuation τ sig (Elt Ideal) := StableHlo.after (opsF (F := Ideal)) (U8 m c)
abbrev U10 : Valuation τ sig (Elt Ideal) := StableHlo.after (opsG (F := Ideal)) (U9 m c)
abbrev U11 : Valuation τ sig (Elt Ideal) := StableHlo.after (opsH1 (F := Ideal)) (U10 m c)
abbrev U12 : Valuation τ sig (Elt Ideal) := StableHlo.after (opsH2 (F := Ideal)) (U11 m c)
abbrev U13 : Valuation τ sig (Elt Ideal) := StableHlo.after (opsH3 (F := Ideal)) (U12 m c)
abbrev U14 : Valuation τ sig (Elt Ideal) := StableHlo.after (opsH4 (F := Ideal)) (U13 m c)

/-! ## The edge lists, the first dense product, the degrees' mask and inverse square root -/

theorem U1_v3 : U1 m c (Proc.devRef .tc main_v3) = val_main_v3 (F := Ideal) (m ((c.tc : Thread nD τ).loc main_arg1)) := by
  show StableHlo.after (opsA (F := Ideal)) (U0 m c) (Proc.devRef .tc main_v3) = _
  simp only [opsA]
  after_results_simp <;> rfl
theorem U1_v6 : U1 m c (Proc.devRef .tc main_v6) = val_main_v6 (F := Ideal) (m ((c.tc : Thread nD τ).loc main_arg1)) := by
  show StableHlo.after (opsA (F := Ideal)) (U0 m c) (Proc.devRef .tc main_v6) = _
  simp only [opsA]
  after_results_simp <;> rfl
theorem U1_v7 : U1 m c (Proc.devRef .tc main_v7) = val_main_v7 (F := Ideal) (m ((c.tc : Thread nD τ).loc main_arg0)) (m ((c.tc : Thread nD τ).loc main_arg2)) := by
  show StableHlo.after (opsA (F := Ideal)) (U0 m c) (Proc.devRef .tc main_v7) = _
  simp only [opsA]
  after_results_simp <;> rfl
theorem U1_v13 : U1 m c (Proc.devRef .tc main_v13) = val_main_v13 (F := Ideal) (m ((c.tc : Thread nD τ).loc main_arg1)) := by
  show StableHlo.after (opsA (F := Ideal)) (U0 m c) (Proc.devRef .tc main_v13) = _
  simp only [opsA]
  after_results_simp <;> rfl
theorem U1_v14 : U1 m c (Proc.devRef .tc main_v14) = val_main_v14 (F := Ideal) (m ((c.tc : Thread nD τ).loc main_arg1)) := by
  show StableHlo.after (opsA (F := Ideal)) (U0 m c) (Proc.devRef .tc main_v14) = _
  simp only [opsA]
  after_results_simp <;> rfl
theorem U1_cst_2 : U1 m c (Proc.devRef .tc main_cst_2) = val_main_cst_2 (F := Ideal) := by
  show StableHlo.after (opsA (F := Ideal)) (U0 m c) (Proc.devRef .tc main_cst_2) = _
  simp only [opsA]
  after_results_simp <;> rfl
theorem U1_arg3 : U1 m c (Proc.devRef .tc main_arg3) = m ((c.tc : Thread nD τ).loc main_arg3) := by
  show StableHlo.after (opsA (F := Ideal)) (U0 m c) (Proc.devRef .tc main_arg3) = _
  simp only [opsA]
  after_results_simp <;> rfl
theorem U1_arg4 : U1 m c (Proc.devRef .tc main_arg4) = m ((c.tc : Thread nD τ).loc main_arg4) := by
  show StableHlo.after (opsA (F := Ideal)) (U0 m c) (Proc.devRef .tc main_arg4) = _
  simp only [opsA]
  after_results_simp <;> rfl
theorem U1_arg5 : U1 m c (Proc.devRef .tc main_arg5) = m ((c.tc : Thread nD τ).loc main_arg5) := by
  show StableHlo.after (opsA (F := Ideal)) (U0 m c) (Proc.devRef .tc main_arg5) = _
  simp only [opsA]
  after_results_simp <;> rfl

/-! ## The guarded selection -/

theorem U2_v15 : U2 m c (Proc.devRef .tc main_v15) = val_main_v15 (F := Ideal) (m ((c.tc : Thread nD τ).loc main_arg1)) := by
  have e0 := U1_v13 m c
  have e1 := U1_v14 m c
  have e2 := U1_cst_2 m c
  show StableHlo.after (opsA2 (F := Ideal)) (U1 m c) (Proc.devRef .tc main_v15) = _
  generalize U1 m c = V at e0 e1 e2 ⊢
  simp only [opsA2]
  after_results_simp
  rw [e0, e1, e2]
  exact (where1_transport (F := Ideal) _ _ _).trans rfl
theorem U2_v3 : U2 m c (Proc.devRef .tc main_v3) = val_main_v3 (F := Ideal) (m ((c.tc : Thread nD τ).loc main_arg1)) := by
  have e0 := U1_v3 m c
  show StableHlo.after (opsA2 (F := Ideal)) (U1 m c) (Proc.devRef .tc main_v3) = _
  generalize U1 m c = V at e0 ⊢
  simp only [opsA2]
  after_results_simp
  exact e0
theorem U2_v6 : U2 m c (Proc.devRef .tc main_v6) = val_main_v6 (F := Ideal) (m ((c.tc : Thread nD τ).loc main_arg1)) := by
  have e0 := U1_v6 m c
  show StableHlo.after (opsA2 (F := Ideal)) (U1 m c) (Proc.devRef .tc main_v6) = _
  generalize U1 m c = V at e0 ⊢
  simp only [opsA2]
  after_results_simp
  exact e0
theorem U2_v7 : U2 m c (Proc.devRef .tc main_v7) = val_main_v7 (F := Ideal) (m ((c.tc : Thread nD τ).loc main_arg0)) (m ((c.tc : Thread nD τ).loc main_arg2)) := by
  have e0 := U1_v7 m c
  show StableHlo.after (opsA2 (F := Ideal)) (U1 m c) (Proc.devRef .tc main_v7) = _
  generalize U1 m c = V at e0 ⊢
  simp only [opsA2]
  after_results_simp
  exact e0
theorem U2_arg3 : U2 m c (Proc.devRef .tc main_arg3) = m ((c.tc : Thread nD τ).loc main_arg3) := by
  have e0 := U1_arg3 m c
  show StableHlo.after (opsA2 (F := Ideal)) (U1 m c) (Proc.devRef .tc main_arg3) = _
  generalize U1 m c = V at e0 ⊢
  simp only [opsA2]
  after_results_simp
  exact e0
theorem U2_arg4 : U2 m c (Proc.devRef .tc main_arg4) = m ((c.tc : Thread nD τ).loc main_arg4) := by
  have e0 := U1_arg4 m c
  show StableHlo.after (opsA2 (F := Ideal)) (U1 m c) (Proc.devRef .tc main_arg4) = _
  generalize U1 m c = V at e0 ⊢
  simp only [opsA2]
  after_results_simp
  exact e0
theorem U2_arg5 : U2 m c (Proc.devRef .tc main_arg5) = m ((c.tc : Thread nD τ).loc main_arg5) := by
  have e0 := U1_arg5 m c
  show StableHlo.after (opsA2 (F := Ideal)) (U1 m c) (Proc.devRef .tc main_arg5) = _
  generalize U1 m c = V at e0 ⊢
  simp only [opsA2]
  after_results_simp
  exact e0

/-! ## The edges' normalisation -/

theorem U3_v30 : U3 m c (Proc.devRef .tc main_v30) = val_main_v30 (F := Ideal) (m ((c.tc : Thread nD τ).loc main_arg1)) := by
  have e0 := U2_v15 m c
  have e1 := U2_v3 m c
  have e2 := U2_v6 m c
  show StableHlo.after (opsB (F := Ideal)) (U2 m c) (Proc.devRef .tc main_v30) = _
  generalize U2 m c = V at e0 e1 e2 ⊢
  simp only [opsB]
  after_results_simp
  rw [e0, e1, e2]
  simp only [val_main_c, val_main_v16, val_main_v17, val_main_c_3, val_main_v18, val_main_v19, val_main_v20, val_main_v21, val_main_v22, val_main_c_4, val_main_v23, val_main_v24, val_main_c_5, val_main_v25, val_main_v26, val_main_v27, val_main_v28, val_main_v29, val_main_v30]
theorem U3_v3 : U3 m c (Proc.devRef .tc main_v3) = val_main_v3 (F := Ideal) (m ((c.tc : Thread nD τ).loc main_arg1)) := by
  have e0 := U2_v3 m c
  show StableHlo.after (opsB (F := Ideal)) (U2 m c) (Proc.devRef .tc main_v3) = _
  generalize U2 m c = V at e0 ⊢
  simp only [opsB]
  after_results_simp
  exact e0
theorem U3_v6 : U3 m c (Proc.devRef .tc main_v6) = val_main_v6 (F := Ideal) (m ((c.tc : Thread nD τ).loc main_arg1)) := by
  have e0 := U2_v6 m c
  show StableHlo.after (opsB (F := Ideal)) (U2 m c) (Proc.devRef .tc main_v6) = _
  generalize U2 m c = V at e0 ⊢
  simp only [opsB]
  after_results_simp
  exact e0
theorem U3_v7 : U3 m c (Proc.devRef .tc main_v7) = val_main_v7 (F := Ideal) (m ((c.tc : Thread nD τ).loc main_arg0)) (m ((c.tc : Thread nD τ).loc main_arg2)) := by
  have e0 := U2_v7 m c
  show StableHlo.after (opsB (F := Ideal)) (U2 m c) (Proc.devRef .tc main_v7) = _
  generalize U2 m c = V at e0 ⊢
  simp only [opsB]
  after_results_simp
  exact e0
theorem U3_arg3 : U3 m c (Proc.devRef .tc main_arg3) = m ((c.tc : Thread nD τ).loc main_arg3) := by
  have e0 := U2_arg3 m c
  show StableHlo.after (opsB (F := Ideal)) (U2 m c) (Proc.devRef .tc main_arg3) = _
  generalize U2 m c = V at e0 ⊢
  simp only [opsB]
  after_results_simp
  exact e0
theorem U3_arg4 : U3 m c (Proc.devRef .tc main_arg4) = m ((c.tc : Thread nD τ).loc main_arg4) := by
  have e0 := U2_arg4 m c
  show StableHlo.after (opsB (F := Ideal)) (U2 m c) (Proc.devRef .tc main_arg4) = _
  generalize U2 m c = V at e0 ⊢
  simp only [opsB]
  after_results_simp
  exact e0
theorem U3_arg5 : U3 m c (Proc.devRef .tc main_arg5) = m ((c.tc : Thread nD τ).loc main_arg5) := by
  have e0 := U2_arg5 m c
  show StableHlo.after (opsB (F := Ideal)) (U2 m c) (Proc.devRef .tc main_arg5) = _
  generalize U2 m c = V at e0 ⊢
  simp only [opsB]
  after_results_simp
  exact e0

/-! ## The first layer's messages, summed at their destinations and biased -/

theorem U4_v46 : U4 m c (Proc.devRef .tc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) := by
  have e0 := U3_v7 m c
  have e1 := U3_v3 m c
  have e2 := U3_v30 m c
  have e3 := U3_v6 m c
  have e4 := U3_arg3 m c
  show StableHlo.after (opsC (F := Ideal)) (U3 m c) (Proc.devRef .tc main_v46) = _
  generalize U3 m c = V at e0 e1 e2 e3 e4 ⊢
  simp only [opsC]
  after_results_simp
  rw [e0, e1, e2, e3, e4]
  simp only [val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46]
theorem U4_v3 : U4 m c (Proc.devRef .tc main_v3) = val_main_v3 (F := Ideal) (m ((c.tc : Thread nD τ).loc main_arg1)) := by
  have e0 := U3_v3 m c
  show StableHlo.after (opsC (F := Ideal)) (U3 m c) (Proc.devRef .tc main_v3) = _
  generalize U3 m c = V at e0 ⊢
  simp only [opsC]
  after_results_simp
  exact e0
theorem U4_v6 : U4 m c (Proc.devRef .tc main_v6) = val_main_v6 (F := Ideal) (m ((c.tc : Thread nD τ).loc main_arg1)) := by
  have e0 := U3_v6 m c
  show StableHlo.after (opsC (F := Ideal)) (U3 m c) (Proc.devRef .tc main_v6) = _
  generalize U3 m c = V at e0 ⊢
  simp only [opsC]
  after_results_simp
  exact e0
theorem U4_arg4 : U4 m c (Proc.devRef .tc main_arg4) = m ((c.tc : Thread nD τ).loc main_arg4) := by
  have e0 := U3_arg4 m c
  show StableHlo.after (opsC (F := Ideal)) (U3 m c) (Proc.devRef .tc main_arg4) = _
  generalize U3 m c = V at e0 ⊢
  simp only [opsC]
  after_results_simp
  exact e0
theorem U4_arg5 : U4 m c (Proc.devRef .tc main_arg5) = m ((c.tc : Thread nD τ).loc main_arg5) := by
  have e0 := U3_arg5 m c
  show StableHlo.after (opsC (F := Ideal)) (U3 m c) (Proc.devRef .tc main_arg5) = _
  generalize U3 m c = V at e0 ⊢
  simp only [opsC]
  after_results_simp
  exact e0

/-! ## The rectification -/

theorem U5_v47 : U5 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  have e0 := U4_v46 m c
  show StableHlo.after (opsC2 (F := Ideal)) (U4 m c) (Proc.devRef .tc main_v47) = _
  generalize U4 m c = V at e0 ⊢
  simp only [opsC2]
  after_results_simp
  rw [e0]
  exact (relu_transport (F := Ideal) _).trans rfl
theorem U5_v3 : U5 m c (Proc.devRef .tc main_v3) = val_main_v3 (F := Ideal) (m ((c.tc : Thread nD τ).loc main_arg1)) := by
  have e0 := U4_v3 m c
  show StableHlo.after (opsC2 (F := Ideal)) (U4 m c) (Proc.devRef .tc main_v3) = _
  generalize U4 m c = V at e0 ⊢
  simp only [opsC2]
  after_results_simp
  exact e0
theorem U5_v6 : U5 m c (Proc.devRef .tc main_v6) = val_main_v6 (F := Ideal) (m ((c.tc : Thread nD τ).loc main_arg1)) := by
  have e0 := U4_v6 m c
  show StableHlo.after (opsC2 (F := Ideal)) (U4 m c) (Proc.devRef .tc main_v6) = _
  generalize U4 m c = V at e0 ⊢
  simp only [opsC2]
  after_results_simp
  exact e0
theorem U5_arg4 : U5 m c (Proc.devRef .tc main_arg4) = m ((c.tc : Thread nD τ).loc main_arg4) := by
  have e0 := U4_arg4 m c
  show StableHlo.after (opsC2 (F := Ideal)) (U4 m c) (Proc.devRef .tc main_arg4) = _
  generalize U4 m c = V at e0 ⊢
  simp only [opsC2]
  after_results_simp
  exact e0
theorem U5_arg5 : U5 m c (Proc.devRef .tc main_arg5) = m ((c.tc : Thread nD τ).loc main_arg5) := by
  have e0 := U4_arg5 m c
  show StableHlo.after (opsC2 (F := Ideal)) (U4 m c) (Proc.devRef .tc main_arg5) = _
  generalize U4 m c = V at e0 ⊢
  simp only [opsC2]
  after_results_simp
  exact e0

/-! ## The second dense product -/

theorem U6_v48 : U6 m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e0 := U5_v47 m c
  have e1 := U5_arg4 m c
  show StableHlo.after (opsD (F := Ideal)) (U5 m c) (Proc.devRef .tc main_v48) = _
  generalize U5 m c = V at e0 e1 ⊢
  simp only [opsD]
  after_results_simp
  rw [e0, e1]
  simp only [val_main_v48]
theorem U6_v3 : U6 m c (Proc.devRef .tc main_v3) = val_main_v3 (F := Ideal) (m ((c.tc : Thread nD τ).loc main_arg1)) := by
  have e0 := U5_v3 m c
  show StableHlo.after (opsD (F := Ideal)) (U5 m c) (Proc.devRef .tc main_v3) = _
  generalize U5 m c = V at e0 ⊢
  simp only [opsD]
  after_results_simp
  exact e0
theorem U6_v6 : U6 m c (Proc.devRef .tc main_v6) = val_main_v6 (F := Ideal) (m ((c.tc : Thread nD τ).loc main_arg1)) := by
  have e0 := U5_v6 m c
  show StableHlo.after (opsD (F := Ideal)) (U5 m c) (Proc.devRef .tc main_v6) = _
  generalize U5 m c = V at e0 ⊢
  simp only [opsD]
  after_results_simp
  exact e0
theorem U6_arg5 : U6 m c (Proc.devRef .tc main_arg5) = m ((c.tc : Thread nD τ).loc main_arg5) := by
  have e0 := U5_arg5 m c
  show StableHlo.after (opsD (F := Ideal)) (U5 m c) (Proc.devRef .tc main_arg5) = _
  generalize U5 m c = V at e0 ⊢
  simp only [opsD]
  after_results_simp
  exact e0

/-! ## The degrees' mask and inverse square root, again -/

theorem U7_v54 : U7 m c (Proc.devRef .tc main_v54) = val_main_v54 (F := Ideal) (m ((c.tc : Thread nD τ).loc main_arg1)) := by
  have e0 := U6_v6 m c
  show StableHlo.after (opsE (F := Ideal)) (U6 m c) (Proc.devRef .tc main_v54) = _
  generalize U6 m c = V at e0 ⊢
  simp only [opsE]
  after_results_simp
  rw [e0]
  simp only [val_main_cst_9, val_main_v49, val_main_cst_10, val_main_v50, val_main_v51, val_main_v52, val_main_cst_11, val_main_v53, val_main_v54, val_main_v55, val_main_cst_12]
theorem U7_v55 : U7 m c (Proc.devRef .tc main_v55) = val_main_v55 (F := Ideal) (m ((c.tc : Thread nD τ).loc main_arg1)) := by
  have e0 := U6_v6 m c
  show StableHlo.after (opsE (F := Ideal)) (U6 m c) (Proc.devRef .tc main_v55) = _
  generalize U6 m c = V at e0 ⊢
  simp only [opsE]
  after_results_simp
  rw [e0]
  simp only [val_main_cst_9, val_main_v49, val_main_cst_10, val_main_v50, val_main_v51, val_main_v52, val_main_cst_11, val_main_v53, val_main_v54, val_main_v55, val_main_cst_12]
theorem U7_cst_12 : U7 m c (Proc.devRef .tc main_cst_12) = val_main_cst_12 (F := Ideal) := by
  show StableHlo.after (opsE (F := Ideal)) (U6 m c) (Proc.devRef .tc main_cst_12) = _
  generalize U6 m c = V
  simp only [opsE]
  after_results_simp
  rfl
theorem U7_v3 : U7 m c (Proc.devRef .tc main_v3) = val_main_v3 (F := Ideal) (m ((c.tc : Thread nD τ).loc main_arg1)) := by
  have e0 := U6_v3 m c
  show StableHlo.after (opsE (F := Ideal)) (U6 m c) (Proc.devRef .tc main_v3) = _
  generalize U6 m c = V at e0 ⊢
  simp only [opsE]
  after_results_simp
  exact e0
theorem U7_v6 : U7 m c (Proc.devRef .tc main_v6) = val_main_v6 (F := Ideal) (m ((c.tc : Thread nD τ).loc main_arg1)) := by
  have e0 := U6_v6 m c
  show StableHlo.after (opsE (F := Ideal)) (U6 m c) (Proc.devRef .tc main_v6) = _
  generalize U6 m c = V at e0 ⊢
  simp only [opsE]
  after_results_simp
  exact e0
theorem U7_v48 : U7 m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e0 := U6_v48 m c
  show StableHlo.after (opsE (F := Ideal)) (U6 m c) (Proc.devRef .tc main_v48) = _
  generalize U6 m c = V at e0 ⊢
  simp only [opsE]
  after_results_simp
  exact e0
theorem U7_arg5 : U7 m c (Proc.devRef .tc main_arg5) = m ((c.tc : Thread nD τ).loc main_arg5) := by
  have e0 := U6_arg5 m c
  show StableHlo.after (opsE (F := Ideal)) (U6 m c) (Proc.devRef .tc main_arg5) = _
  generalize U6 m c = V at e0 ⊢
  simp only [opsE]
  after_results_simp
  exact e0

/-! ## The guarded selection, again -/

theorem U8_v56 : U8 m c (Proc.devRef .tc main_v56) = val_main_v56 (F := Ideal) (m ((c.tc : Thread nD τ).loc main_arg1)) := by
  have e0 := U7_v54 m c
  have e1 := U7_v55 m c
  have e2 := U7_cst_12 m c
  show StableHlo.after (opsE2 (F := Ideal)) (U7 m c) (Proc.devRef .tc main_v56) = _
  generalize U7 m c = V at e0 e1 e2 ⊢
  simp only [opsE2]
  after_results_simp
  rw [e0, e1, e2]
  exact (where2_transport (F := Ideal) _ _ _).trans rfl
theorem U8_v3 : U8 m c (Proc.devRef .tc main_v3) = val_main_v3 (F := Ideal) (m ((c.tc : Thread nD τ).loc main_arg1)) := by
  have e0 := U7_v3 m c
  show StableHlo.after (opsE2 (F := Ideal)) (U7 m c) (Proc.devRef .tc main_v3) = _
  generalize U7 m c = V at e0 ⊢
  simp only [opsE2]
  after_results_simp
  exact e0
theorem U8_v6 : U8 m c (Proc.devRef .tc main_v6) = val_main_v6 (F := Ideal) (m ((c.tc : Thread nD τ).loc main_arg1)) := by
  have e0 := U7_v6 m c
  show StableHlo.after (opsE2 (F := Ideal)) (U7 m c) (Proc.devRef .tc main_v6) = _
  generalize U7 m c = V at e0 ⊢
  simp only [opsE2]
  after_results_simp
  exact e0
theorem U8_v48 : U8 m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e0 := U7_v48 m c
  show StableHlo.after (opsE2 (F := Ideal)) (U7 m c) (Proc.devRef .tc main_v48) = _
  generalize U7 m c = V at e0 ⊢
  simp only [opsE2]
  after_results_simp
  exact e0
theorem U8_arg5 : U8 m c (Proc.devRef .tc main_arg5) = m ((c.tc : Thread nD τ).loc main_arg5) := by
  have e0 := U7_arg5 m c
  show StableHlo.after (opsE2 (F := Ideal)) (U7 m c) (Proc.devRef .tc main_arg5) = _
  generalize U7 m c = V at e0 ⊢
  simp only [opsE2]
  after_results_simp
  exact e0

/-! ## The normalisation, again -/

theorem U9_v71 : U9 m c (Proc.devRef .tc main_v71) = val_main_v71 (F := Ideal) (m ((c.tc : Thread nD τ).loc main_arg1)) := by
  have e0 := U8_v56 m c
  have e1 := U8_v3 m c
  have e2 := U8_v6 m c
  show StableHlo.after (opsF (F := Ideal)) (U8 m c) (Proc.devRef .tc main_v71) = _
  generalize U8 m c = V at e0 e1 e2 ⊢
  simp only [opsF]
  after_results_simp
  rw [e0, e1, e2]
  simp only [val_main_c_13, val_main_v57, val_main_v58, val_main_c_14, val_main_v59, val_main_v60, val_main_v61, val_main_v62, val_main_v63, val_main_c_15, val_main_v64, val_main_v65, val_main_c_16, val_main_v66, val_main_v67, val_main_v68, val_main_v69, val_main_v70, val_main_v71]
theorem U9_v3 : U9 m c (Proc.devRef .tc main_v3) = val_main_v3 (F := Ideal) (m ((c.tc : Thread nD τ).loc main_arg1)) := by
  have e0 := U8_v3 m c
  show StableHlo.after (opsF (F := Ideal)) (U8 m c) (Proc.devRef .tc main_v3) = _
  generalize U8 m c = V at e0 ⊢
  simp only [opsF]
  after_results_simp
  exact e0
theorem U9_v6 : U9 m c (Proc.devRef .tc main_v6) = val_main_v6 (F := Ideal) (m ((c.tc : Thread nD τ).loc main_arg1)) := by
  have e0 := U8_v6 m c
  show StableHlo.after (opsF (F := Ideal)) (U8 m c) (Proc.devRef .tc main_v6) = _
  generalize U8 m c = V at e0 ⊢
  simp only [opsF]
  after_results_simp
  exact e0
theorem U9_v48 : U9 m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e0 := U8_v48 m c
  show StableHlo.after (opsF (F := Ideal)) (U8 m c) (Proc.devRef .tc main_v48) = _
  generalize U8 m c = V at e0 ⊢
  simp only [opsF]
  after_results_simp
  exact e0
theorem U9_arg5 : U9 m c (Proc.devRef .tc main_arg5) = m ((c.tc : Thread nD τ).loc main_arg5) := by
  have e0 := U8_arg5 m c
  show StableHlo.after (opsF (F := Ideal)) (U8 m c) (Proc.devRef .tc main_arg5) = _
  generalize U8 m c = V at e0 ⊢
  simp only [opsF]
  after_results_simp
  exact e0

/-! ## The second layer's messages, summed at their destinations and biased -/

theorem U10_v87 : U10 m c (Proc.devRef .tc main_v87) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 := U9_v48 m c
  have e1 := U9_v3 m c
  have e2 := U9_v71 m c
  have e3 := U9_v6 m c
  have e4 := U9_arg5 m c
  show StableHlo.after (opsG (F := Ideal)) (U9 m c) (Proc.devRef .tc main_v87) = _
  generalize U9 m c = V at e0 e1 e2 e3 e4 ⊢
  simp only [opsG]
  after_results_simp
  rw [e0, e1, e2, e3, e4]
  simp only [val_main_c_17, val_main_v72, val_main_v73, val_main_c_18, val_main_v74, val_main_v75, val_main_v76, val_main_v77, val_main_v78, val_main_v79, val_main_v80, val_main_v81, val_main_cst_19, val_main_v82, val_main_v83, val_main_v84, val_main_v85, val_main_v86, val_main_v87]

/-! ## The log-softmax: the row maxima, the shifted array, the row sums of its exponentials, the logarithm subtracted -/

theorem U11_call3_v2 : U11 m c (Proc.devRef .tc main_call3_v2) = val_main_call3_v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 := U10_v87 m c
  show StableHlo.after (opsH1 (F := Ideal)) (U10 m c) (Proc.devRef .tc main_call3_v2) = _
  generalize U10 m c = V at e0 ⊢
  simp only [opsH1]
  after_results_simp
  rw [e0]
  exact (rowmax_transport (F := Ideal) _).trans rfl
theorem U11_v87 : U11 m c (Proc.devRef .tc main_v87) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 := U10_v87 m c
  show StableHlo.after (opsH1 (F := Ideal)) (U10 m c) (Proc.devRef .tc main_v87) = _
  generalize U10 m c = V at e0 ⊢
  simp only [opsH1]
  after_results_simp
  exact e0

theorem U12_call3_v5 : U12 m c (Proc.devRef .tc main_call3_v5) = val_main_call3_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 := U11_v87 m c
  have e1 := U11_call3_v2 m c
  show StableHlo.after (opsH2 (F := Ideal)) (U11 m c) (Proc.devRef .tc main_call3_v5) = _
  generalize U11 m c = V at e0 e1 ⊢
  simp only [opsH2]
  after_results_simp
  rw [e0, e1]
  exact (shift_transport (F := Ideal) _ _).trans rfl

theorem U13_call3_v8 : U13 m c (Proc.devRef .tc main_call3_v8) = val_main_call3_v8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 := U12_call3_v5 m c
  show StableHlo.after (opsH3 (F := Ideal)) (U12 m c) (Proc.devRef .tc main_call3_v8) = _
  generalize U12 m c = V at e0 ⊢
  simp only [opsH3]
  after_results_simp
  rw [e0]
  exact (rowsum_transport (F := Ideal) _).trans rfl
theorem U13_call3_v5 : U13 m c (Proc.devRef .tc main_call3_v5) = val_main_call3_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 := U12_call3_v5 m c
  show StableHlo.after (opsH3 (F := Ideal)) (U12 m c) (Proc.devRef .tc main_call3_v5) = _
  generalize U12 m c = V at e0 ⊢
  simp only [opsH3]
  after_results_simp
  exact e0

theorem U14_v88 : U14 m c (Proc.devRef .tc main_v88) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 := U13_call3_v5 m c
  have e1 := U13_call3_v8 m c
  show StableHlo.after (opsH4 (F := Ideal)) (U13 m c) (Proc.devRef .tc main_v88) = _
  generalize U13 m c = V at e0 e1 ⊢
  simp only [opsH4]
  after_results_simp
  rw [e0, e1]
  exact (logsub_transport (F := Ideal) _ _).trans rfl

/-- The result buffer after the whole line: the reference's last stage of the arguments. -/
theorem result_eq : StableHlo.after (Cert.ReferenceIdeal.ValueP.ops (F := Ideal)) (launchContents m c) (Proc.devRef .tc main_v88)
    = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]; exact U14_v88 m c

/-! ## The run -/

set_option maxRecDepth 8192 in
set_option maxHeartbeats 52400000 in
/-- From any memory with zero counters every weakly fair execution of the reference terminates, nothing faulting, with the
    result buffer at the reference's last stage of the arguments and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefRun

end
-- ==== Proof.NamedRun.lean ====
/-
  The idealized kernel program's run with its result named.

  Every weakly fair execution of the program from a memory with zero counters terminates without a fault; the result
  buffer then holds the contents that the last region's write-backs leave in it — the value of the fold of the
  program's thirteen segments (seven stretches of host operations, six regions) at that buffer — and the six argument
  arrays are as launched. It is the launch of the segments' chain read at one more buffer than the frame reads.
-/
import proofs.«143910_j5222680232345_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v56) = W13 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v56 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.NamedRun

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«143910_j5222680232345_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«143910_j5222680232345_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibLogSoftmax.lean ====
/-
  The logarithm of a row softmax on the extended reals, over rank-2 arrays of any extents.

  `rowMax X p` is the maximum of row `p` taken from −∞; `lsm X` is the row-wise log-softmax in its shifted form,
  `lsm X (p, q) = (X(p, q) − M p) − log (∑ k, exp (X(p, k) − M p))` with `M p = rowMax X p`.  The vector unit spells it
  with lane reductions along the second axis (a maximum from −∞, a sum from 0), the reduced vectors cast to a column and
  the column broadcast along the rows; the host with reductions along the second axis, one more maximum with −∞
  (which changes nothing), and `broadcast_in_dim` to a column and to the array.  Both are `lsm`.  The entry at
  `(p, q)` depends on row `p` of `X` only (`lsm_rows`).
-/
import Idealize.ShloMosaic.PureOps.Ideal.Laws
import Idealize.ShloMosaic.Lib.ValueIdx
import Idealize.ShloMosaic.Lib.ValueLayout
import Idealize.ShloMosaic.Lib.Pipeline.Value
import proofs.«143910_j5222680232345_1_alg».proof.Proof.LibDense
import proofs.«143910_j5222680232345_1_alg».proof.Proof.LibRowBlocks
import proofs.«143910_j5222680232345_1_alg».proof.Proof.LibHostLayout

noncomputable section

open scoped BigOperators

namespace Cert.LogSoftmax

open Idealize.ShloMosaic Idealize.ShloMosaic.ValueIdx Cert.Dense

/-- −∞ as the float pattern both programs spell it with. -/
abbrev negInf : EReal := Ideal.ofBits .f32 0xFF800000#32

/-- The maximum with −∞ on the left changes nothing. -/
theorem max_negInf (y : EReal) : max negInf y = y := by
  show max (Ideal.ofBits .f32 0xFF800000#32) y = y
  simp [Ideal.ofBits, Ideal.ieee]

/-- The maximum of row `p`, from −∞. -/
def rowMax {n c : ℕ} (X : Mat n c) (p : Fin n) : EReal :=
  (Finset.univ : Finset (Fin c)).fold max negInf (fun k => X (ix2 p k))

/-- The row-wise log-softmax, shifted by the row maximum. -/
def lsm {n c : ℕ} (X : Mat n c) : Mat n c :=
  fun i => (X i - rowMax X (c0 i)) - Ideal.log (∑ k : Fin c, Ideal.exp (X (ix2 (c0 i) k) - rowMax X (c0 i)))

theorem lsm_apply {n c : ℕ} (X : Mat n c) (p : Fin n) (q : Fin c) :
    lsm X (ix2 p q) = (X (ix2 p q) - rowMax X p) - Ideal.log (∑ k : Fin c, Ideal.exp (X (ix2 p k) - rowMax X p)) := rfl

/-- The row maximum depends on the row only. -/
theorem rowMax_rows {n n' c : ℕ} (X : Mat n c) (X' : Mat n' c) (p : Fin n) (p' : Fin n')
    (h : ∀ k, X' (ix2 p' k) = X (ix2 p k)) : rowMax X' p' = rowMax X p := by
  unfold rowMax
  exact congrArg (fun f => Finset.fold max negInf f (Finset.univ : Finset (Fin c))) (funext h)

/-- Row `p'` of the log-softmax of `X'` is row `p` of that of `X` when the two rows agree. -/
theorem lsm_rows {n n' c : ℕ} (X : Mat n c) (X' : Mat n' c) (p : Fin n) (p' : Fin n')
    (h : ∀ k, X' (ix2 p' k) = X (ix2 p k)) (q : Fin c) : lsm X' (ix2 p' q) = lsm X (ix2 p q) := by
  simp only [lsm_apply, rowMax_rows X X' p p' h, h]

/-- The reduced index `p` with column `k` put back is `(p, k)`. -/
theorem lift_row {n c : ℕ} (h : (⟨2, ![n, c]⟩ : Shape).Reduces [1] (⟨1, ![n]⟩ : Shape)) (p : Fin n)
    (k : Fin ((⟨2, ![n, c]⟩ : Shape).size 1)) : h.lift (ix1 p) k = ix2 p (⟨k.val, k.isLt⟩ : Fin c) := by
  funext a; apply Fin.ext
  match a with
  | ⟨0, _⟩ => rfl
  | ⟨1, _⟩ => rfl

/-- The vector unit's lane maximum from −∞ along the second axis reads, at row `p`, the row's maximum. -/
theorem vecRowMax {n c : ℕ} (X : FVec Ideal ⟨2, ![n, c]⟩ .f32)
    (h : (⟨2, ![n, c]⟩ : Shape).Reduces [1] ⟨1, ![n]⟩) (hφ : FKind.Formats .f32)
    (hacc : (0xFF800000#32 : BitVec 32) = FKind.maximumf.neutral .f32 hφ) (p : Fin n) :
    multiReduction .maximumf [1] ⟨1, ![n]⟩ X 0xFF800000#32 h hφ hacc (ix1 p) = rowMax X p := by
  rw [Ideal.multiReduction_maximumf_single X 0xFF800000#32 h hφ hacc (ix1 p)]
  have hf : (X ∘ h.lift (ix1 p)) = fun k : Fin c => X (ix2 p k) := funext fun k => congrArg X (lift_row h p k)
  exact congrArg (fun f => Finset.fold max (Ideal.ofBits .f32 0xFF800000#32) f (Finset.univ : Finset (Fin c))) hf

/-- The host's maximum reduction from −∞ along the second axis reads, at row `p`, the row's maximum. -/
theorem hostRowMax {n c : ℕ} (X : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (p : Fin n) :
    Host.reduce FloatOps.maximumf X (constant (F := Ideal) (⟨0, ![]⟩ : Shape) .f32 0xFF800000#32) h' hu (ix1 p) = rowMax X p := by
  rw [Host.reduce_eq_fold_single FloatOps.maximumf X _ h' h hu]
  have hf : (X ∘ h.lift (ix1 p)) = fun k : Fin c => X (ix2 p k) := funext fun k => congrArg X (lift_row h p k)
  exact congrArg (fun f => Finset.fold max (Ideal.ofBits .f32 0xFF800000#32) f (Finset.univ : Finset (Fin c))) hf

/-- A scalar broadcast to a vector reads the scalar everywhere. -/
theorem bcast_scalar_vec {α : Type} {n : ℕ} (x : (⟨0, ![]⟩ : Shape).Idx → α)
    (h : (⟨0, ![]⟩ : Shape).BroadcastsInDim ⟨1, ![n]⟩ ![]) (p : Fin n) :
    broadcastInDim ⟨1, ![n]⟩ ![] h x (ix1 p) = x ix0 :=
  broadcastInDim_apply ![] h x (ix1 p) ix0 fun a => a.elim0

/-- The shifted form assembled from its parts: an array `Mx` holding every row's maximum along that row, and an array
    `L` holding along every row the logarithm of the row's sum of `exp (X − Mx)`. -/
theorem lsm_of_parts {n c : ℕ} (X Mx L : Mat n c) (hM : ∀ p k, Mx (ix2 p k) = rowMax X p)
    (hL : ∀ p k, L (ix2 p k) = Ideal.log (∑ j : Fin c, Ideal.exp (X (ix2 p j) - Mx (ix2 p j)))) :
    (fun i => (X i - Mx i) - L i) = lsm X := by
  funext i
  obtain ⟨p, q, rfl⟩ : ∃ (p : Fin n) (q : Fin c), i = ix2 p q := ⟨i 0, i 1, eq_ix2 i⟩
  show (X (ix2 p q) - Mx (ix2 p q)) - L (ix2 p q) = _
  rw [hL, hM, lsm_apply]
  refine congrArg (fun s => (X (ix2 p q) - rowMax X p) - Ideal.log s) (Finset.sum_congr rfl fun k _ => ?_)
  rw [hM]

/-- The vector unit's row maxima, cast to a column and broadcast along the rows. -/
theorem vecColMax {n c : ℕ} (X : FVec Ideal ⟨2, ![n, c]⟩ .f32)
    (h : (⟨2, ![n, c]⟩ : Shape).Reduces [1] ⟨1, ![n]⟩) (hφ : FKind.Formats .f32)
    (haccM : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, c]⟩)
    (p : Fin n) (k : Fin c) :
    broadcastTo ⟨2, ![n, c]⟩ (shapeCast ⟨2, ![n, 1]⟩ (multiReduction .maximumf [1] ⟨1, ![n]⟩ X 0xFF800000#32 h hφ haccM) hc) hb (ix2 p k)
      = rowMax X p := by
  rw [Cert.RowBlocks.broadcastTo_col_apply, Cert.RowBlocks.shapeCast_col_apply, vecRowMax]

/-- The vector unit's row sums of `exp`, cast to a column, the logarithm taken and broadcast along the rows. -/
theorem vecColLogSum {n c : ℕ} (E : FVec Ideal ⟨2, ![n, c]⟩ .f32)
    (h : (⟨2, ![n, c]⟩ : Shape).Reduces [1] ⟨1, ![n]⟩) (hφ : FKind.Formats .f32)
    (haccS : (0x00000000#32 : BitVec 32) = 0x00000000#32)
    (hc : (⟨1, ![n]⟩ : Shape).ShapeCasts ⟨2, ![n, 1]⟩) (hb : (⟨2, ![n, 1]⟩ : Shape).Broadcasts ⟨2, ![n, c]⟩)
    (p : Fin n) (k : Fin c) :
    broadcastTo ⟨2, ![n, c]⟩ (log (shapeCast ⟨2, ![n, 1]⟩ (multiReduction .add [1] ⟨1, ![n]⟩ E 0x00000000#32 h hφ haccS) hc)) hb (ix2 p k)
      = Ideal.log (∑ j : Fin c, E (ix2 p j)) := by
  rw [Cert.RowBlocks.broadcastTo_col_apply]
  show Ideal.log _ = _
  rw [Cert.RowBlocks.shapeCast_col_apply, Cert.RowBlocks.rowSum_apply]

/-- The host's row maxima (from −∞, once more against −∞), broadcast to a column and the column to the array. -/
theorem hostColMax {n c : ℕ} (X : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel)
    (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, c]⟩ ![0, 1]) (p : Fin n) (k : Fin c) :
    broadcastInDim ⟨2, ![n, c]⟩ ![0, 1] hb2 (broadcastInDim ⟨2, ![n, 1]⟩ ![0] hb1
        (maximumf (broadcastInDim ⟨1, ![n]⟩ ![] hb0 (constant (F := Ideal) ⟨0, ![]⟩ .f32 0xFF800000#32))
          (Host.reduce FloatOps.maximumf X (constant (F := Ideal) ⟨0, ![]⟩ .f32 0xFF800000#32) h' hu))) (ix2 p k)
      = rowMax X p := by
  rw [Cert.HostLayout.bcast_col_mat, Cert.HostLayout.bcast_vec_col]
  show max (broadcastInDim ⟨1, ![n]⟩ ![] hb0 (constant (F := Ideal) ⟨0, ![]⟩ .f32 0xFF800000#32) (ix1 p))
      (Host.reduce FloatOps.maximumf X (constant (F := Ideal) ⟨0, ![]⟩ .f32 0xFF800000#32) h' hu (ix1 p)) = _
  rw [bcast_scalar_vec, hostRowMax X h' h hu p]
  exact max_negInf _

/-- The host's row sums (from 0), broadcast to a column, the logarithm taken and the column broadcast to the array. -/
theorem hostColLogSum {n c : ℕ} (E : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel)
    (hb1 : (⟨1, ![n]⟩ : Shape).BroadcastsInDim ⟨2, ![n, 1]⟩ ![0])
    (hb2 : (⟨2, ![n, 1]⟩ : Shape).BroadcastsInDim ⟨2, ![n, c]⟩ ![0, 1]) (p : Fin n) (k : Fin c) :
    broadcastInDim ⟨2, ![n, c]⟩ ![0, 1] hb2 (Host.log (broadcastInDim ⟨2, ![n, 1]⟩ ![0] hb1
        (Host.reduceAdd E (constant (F := Ideal) ⟨0, ![]⟩ .f32 0x00000000#32) h' hu))) (ix2 p k)
      = Ideal.log (∑ j : Fin c, E (ix2 p j)) := by
  rw [Cert.HostLayout.bcast_col_mat]
  show Ideal.log _ = _
  rw [Cert.HostLayout.bcast_vec_col, Cert.HostLayout.hostRowSum _ _ h' h hu p]
  have h0 : (constant (F := Ideal) (⟨0, ![]⟩ : Shape) .f32 0x00000000#32) (Shape.Idx.first hu) = 0 := Ideal.ofBits_zero_f32
  rw [h0, zero_add]

end Cert.LogSoftmax

end
-- ==== Proof.LibScaleRows.lean ====
/-
  Row scaling and the biased row-wise log-softmax on the extended reals, at any extents.

  `scaleRows X s` multiplies row `p` of `X` by the single entry of row `p` of the column `s`:
  `(scaleRows X s)(p, q) = X(p, q) · s(p, 0)`.  The vector unit spells the column's spreading as a broadcast along the
  rows, the host as a `broadcast_in_dim` of the column; both are `scaleRows`.  A vector laid out as a column is the
  same array whether it is cast or broadcast there (`col`).  An entry of `scaleRows X s` depends on the entry of `X`
  there and on the entry of `s` in its row only (`scaleRows_at`).  `lsmBias X b` is the row-wise log-softmax of `X`
  with the one-row bias `b` added to every row; its entry at `(p, q)` depends on row `p` of `X` only.
-/
import Idealize.ShloMosaic.PureOps.Ideal.Laws
import Idealize.ShloMosaic.Lib.ValueIdx
import Idealize.ShloMosaic.Lib.ValueLayout
import Idealize.ShloMosaic.Lib.Pipeline.Value
import proofs.«143910_j5222680232345_1_alg».proof.Proof.LibDense
import proofs.«143910_j5222680232345_1_alg».proof.Proof.LibRowBlocks
import proofs.«143910_j5222680232345_1_alg».proof.Proof.LibHostLayout
import proofs.«143910_j5222680232345_1_alg».proof.Proof.LibBiasRow
import proofs.«143910_j5222680232345_1_alg».proof.Proof.LibLogSoftmax

noncomputable section

open scoped BigOperators

namespace Cert.Spec

open Idealize.ShloMosaic Idealize.ShloMosaic.ValueIdx Cert.Dense Cert.BiasRow Cert.LogSoftmax

/-- Every row of `X` multiplied by the entry of the column `s` in that row. -/
def scaleRows {n c : ℕ} (X : Mat n c) (s : Mat n 1) : Mat n c := fun i => X i * s (ix2 (c0 i) (0 : Fin 1))

theorem scaleRows_apply {n c : ℕ} (X : Mat n c) (s : Mat n 1) (p : Fin n) (q : Fin c) :
    scaleRows X s (ix2 p q) = X (ix2 p q) * s (ix2 p (0 : Fin 1)) := rfl

/-- The vector unit's form: the column broadcast along the rows, multiplied in. -/
theorem vecScale {n c : ℕ} (X : FVec Ideal ⟨2, ![n, c]⟩ .f32) (s : FVec Ideal ⟨2, ![n, 1]⟩ .f32)
    (h : (⟨2, ![n, 1]⟩ : Shape).Broadcasts ⟨2, ![n, c]⟩) :
    mulf X (broadcastTo ⟨2, ![n, c]⟩ s h) = scaleRows X s := by
  funext i
  obtain ⟨p, q, rfl⟩ : ∃ (p : Fin n) (q : Fin c), i = ix2 p q := ⟨i 0, i 1, eq_ix2 i⟩
  show X (ix2 p q) * broadcastTo ⟨2, ![n, c]⟩ s h (ix2 p q) = _
  rw [Cert.RowBlocks.broadcastTo_col_apply]
  rfl

/-- The host's form: the column spread by `broadcast_in_dim`, multiplied in. -/
theorem hostScale {n c : ℕ} (X : FVec Ideal ⟨2, ![n, c]⟩ .f32) (s : FVec Ideal ⟨2, ![n, 1]⟩ .f32)
    (h : (⟨2, ![n, 1]⟩ : Shape).BroadcastsInDim ⟨2, ![n, c]⟩ ![0, 1]) :
    mulf X (broadcastInDim ⟨2, ![n, c]⟩ ![0, 1] h s) = scaleRows X s := by
  funext i
  obtain ⟨p, q, rfl⟩ : ∃ (p : Fin n) (q : Fin c), i = ix2 p q := ⟨i 0, i 1, eq_ix2 i⟩
  show X (ix2 p q) * broadcastInDim ⟨2, ![n, c]⟩ ![0, 1] h s (ix2 p q) = _
  rw [Cert.HostLayout.bcast_col_mat]
  rfl

/-- A vector laid out as a column. -/
def col {n : ℕ} (v : Row n) : Mat n 1 := fun i => v (ix1 (c0 i))

theorem col_apply {n : ℕ} (v : Row n) (p : Fin n) (u : Fin 1) : col v (ix2 p u) = v (ix1 p) := rfl

/-- A vector cast to a column is that column. -/
theorem shapeCast_col {n : ℕ} (v : Row n) (h : (⟨1, ![n]⟩ : Shape).ShapeCasts ⟨2, ![n, 1]⟩) :
    shapeCast ⟨2, ![n, 1]⟩ v h = col v := by
  funext i
  obtain ⟨p, u, rfl⟩ : ∃ (p : Fin n) (u : Fin 1), i = ix2 p u := ⟨i 0, i 1, eq_ix2 i⟩
  exact Cert.RowBlocks.shapeCast_col_apply v h p u

/-- A vector broadcast to a column is that column. -/
theorem bcast_col {n : ℕ} (v : Row n) (h : (⟨1, ![n]⟩ : Shape).BroadcastsInDim ⟨2, ![n, 1]⟩ ![0]) :
    broadcastInDim ⟨2, ![n, 1]⟩ ![0] h v = col v := by
  funext i
  obtain ⟨p, u, rfl⟩ : ∃ (p : Fin n) (u : Fin 1), i = ix2 p u := ⟨i 0, i 1, eq_ix2 i⟩
  exact Cert.HostLayout.bcast_vec_col v h p u

/-- The scaled array at an index depends on the entry there and on the scale of its row. -/
theorem scaleRows_at {n n' c c' : ℕ} (X : Mat n c) (s : Mat n 1) (X' : Mat n' c') (s' : Mat n' 1)
    (j : (⟨2, ![n', c']⟩ : Shape).Idx) (i : (⟨2, ![n, c]⟩ : Shape).Idx)
    (hX : X' j = X i) (hs : s' (ix2 (c0 j) (0 : Fin 1)) = s (ix2 (c0 i) (0 : Fin 1))) :
    scaleRows X' s' j = scaleRows X s i := by
  unfold scaleRows; rw [hX, hs]

/-- The row-wise log-softmax of `X` with the one-row bias `b` added to every row. -/
def lsmBias {n c : ℕ} (X : Mat n c) (b : Mat 1 c) : Mat n c := lsm (addRow X b)

/-- Row `p'` of the biased log-softmax of `X'` is row `p` of that of `X` when the two rows agree. -/
theorem lsmBias_rows {n n' c : ℕ} (X : Mat n c) (X' : Mat n' c) (b : Mat 1 c) (p : Fin n) (p' : Fin n')
    (h : ∀ k, X' (ix2 p' k) = X (ix2 p k)) (q : Fin c) : lsmBias X' b (ix2 p' q) = lsmBias X b (ix2 p q) := by
  unfold lsmBias
  refine lsm_rows (addRow X b) (addRow X' b) p p' (fun k => ?_) q
  rw [addRow_apply, addRow_apply, h k]

end Cert.Spec

end
-- ==== Proof.ChainA.lean ====
/-
  The idealized kernel program's buffers before its first region, as the reference's own stages.

  Before the first region the program computes, on the host, the edge list with the self loops appended (sources and
  destinations), the in-degree of every node as a scatter-add of ones, its guarded inverse square root, and the
  normalisation of every edge as the product of the two gathered inverse square roots, laid out as a column. These are
  operation for operation the reference's opening lines, so each buffer holds the reference's stage of the same
  edge list; the argument arrays are untouched.
-/
import proofs.«143910_j5222680232345_1_alg».proof.Proof.Gen.KernelIdeal.Frame
import proofs.«143910_j5222680232345_1_alg».proof.Proof.ReadP
import proofs.«143910_j5222680232345_1_alg».proof.Proof.LibScaleRows
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-- The guarded selection's three operations write through typed references; the transport along the equation of the
    buffer's type with the value's is the identity, so the selected array is `select` of the three operands. -/
theorem where_transport {F : FTy → Type} [FloatOps F] (a : (⟨S100000, .i1⟩ : BufTy).Contents (Elt F)) (b : (⟨S100000, .f32⟩ : BufTy).Contents (Elt F))
    (z : (⟨S_, .f32⟩ : BufTy).Contents (Elt F)) :
    (TRef.of (sig := sig) (T := ⟨S100000, .f32⟩) main_v14).toBuf (Val := Elt F)
      (select
        ((TRef.of (sig := sig) (T := ⟨S100000, .i1⟩) main_v12).ofBuf (Val := Elt F) a)
        ((TRef.of (sig := sig) (T := ⟨S100000, .f32⟩) main_v13).ofBuf (Val := Elt F) b)
        ((TRef.of (sig := sig) (T := ⟨S100000, .f32⟩) main_call0_v1).ofBuf (Val := Elt F)
          ((TRef.of (sig := sig) (T := ⟨S100000, .f32⟩) main_call0_v1).toBuf (Val := Elt F)
            (broadcastInDim S100000 ![] bcast_S_S100000
              ((TRef.of (sig := sig) (T := ⟨S_, .f32⟩) main_call0_v0).ofBuf (Val := Elt F)
                ((TRef.of (sig := sig) (T := ⟨S_, .f32⟩) main_call0_v0).toBuf (Val := Elt F)
                  (id ((TRef.of (sig := sig) (T := ⟨S_, .f32⟩) main_cst_2).ofBuf (Val := Elt F) z))))))))
    = select a b (broadcastInDim S100000 ![] bcast_S_S100000 z) := rfl

variable (m : (ℓ : Loc nD τ sig) → Buf (Elt Ideal) ℓ) (ρ : Dev nD → PrngReg) (c : Dev nD)

/-! ## After the first stretch: the edge lists, the degrees' mask and inverse square roots -/

/-- The sources with the self loops appended. -/
theorem W1_v3 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  simp only [hostOps0]
  after_results_simp <;> rfl
/-- The destinations with the self loops appended. -/
theorem W1_v6 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  simp only [hostOps0]
  after_results_simp <;> rfl
/-- Where the in-degree is positive. -/
theorem W1_v12 : W1 m ρ c (Proc.devRef .tc main_v12) = Cert.ReferenceIdeal.ReadP.val_main_v13 (F := Ideal) (m ((c : Thread nD τ).loc main_arg1)) := by
  show StableHlo.after hostOps0 (W0 m ρ c) (Proc.devRef .tc main_v12) = _
  simp only [hostOps0]
  after_results_simp <;> rfl
/-- The in-degree's inverse square root. -/
theorem W1_v13 : W1 m ρ c (Proc.devRef .tc main_v13) = Cert.ReferenceIdeal.ReadP.val_main_v14 (F := Ideal) (m ((c : Thread nD τ).loc main_arg1)) := by
  show StableHlo.after hostOps0 (W0 m ρ c) (Proc.devRef .tc main_v13) = _
  simp only [hostOps0]
  after_results_simp <;> rfl
theorem W1_cst_2 : W1 m ρ c (Proc.devRef .tc main_cst_2) = Cert.ReferenceIdeal.ReadP.val_main_cst_2 (F := Ideal) := by
  show StableHlo.after hostOps0 (W0 m ρ c) (Proc.devRef .tc main_cst_2) = _
  simp only [hostOps0]
  after_results_simp <;> rfl
theorem W1_arg0 : W1 m ρ c (Proc.devRef .tc main_arg0) = m ((c : Thread nD τ).loc main_arg0) := by
  show StableHlo.after hostOps0 (W0 m ρ c) (Proc.devRef .tc main_arg0) = _
  simp only [hostOps0]
  after_results_simp <;> rfl
theorem W1_arg2 : W1 m ρ c (Proc.devRef .tc main_arg2) = m ((c : Thread nD τ).loc main_arg2) := by
  show StableHlo.after hostOps0 (W0 m ρ c) (Proc.devRef .tc main_arg2) = _
  simp only [hostOps0]
  after_results_simp <;> rfl
theorem W1_arg3 : W1 m ρ c (Proc.devRef .tc main_arg3) = m ((c : Thread nD τ).loc main_arg3) := by
  show StableHlo.after hostOps0 (W0 m ρ c) (Proc.devRef .tc main_arg3) = _
  simp only [hostOps0]
  after_results_simp <;> rfl
theorem W1_arg4 : W1 m ρ c (Proc.devRef .tc main_arg4) = m ((c : Thread nD τ).loc main_arg4) := by
  show StableHlo.after hostOps0 (W0 m ρ c) (Proc.devRef .tc main_arg4) = _
  simp only [hostOps0]
  after_results_simp <;> rfl
theorem W1_arg5 : W1 m ρ c (Proc.devRef .tc main_arg5) = m ((c : Thread nD τ).loc main_arg5) := by
  show StableHlo.after hostOps0 (W0 m ρ c) (Proc.devRef .tc main_arg5) = _
  simp only [hostOps0]
  after_results_simp <;> rfl

/-! ## After the guarded selection -/

/-- The inverse square root of the in-degree where it is positive, zero elsewhere. -/
theorem W2_v14 : W2 m ρ c (Proc.devRef .tc main_v14) = Cert.ReferenceIdeal.ReadP.val_main_v15 (F := Ideal) (m ((c : Thread nD τ).loc main_arg1)) := by
  have e0 := W1_v12 m ρ c
  have e1 := W1_v13 m ρ c
  have e2 := W1_cst_2 m ρ c
  show StableHlo.after hostOps0_1 (W1 m ρ c) (Proc.devRef .tc main_v14) = _
  generalize W1 m ρ c = V at e0 e1 e2 ⊢
  simp only [hostOps0_1]
  after_results_simp
  rw [e0, e1, e2]
  exact (where_transport (F := Ideal) _ _ _).trans rfl
theorem W2_v3 : W2 m ρ c (Proc.devRef .tc main_v3) = Cert.ReferenceIdeal.ReadP.val_main_v3 (F := Ideal) (m ((c : Thread nD τ).loc main_arg1)) := by
  have e0 := W1_v3 m ρ c
  show StableHlo.after hostOps0_1 (W1 m ρ c) (Proc.devRef .tc main_v3) = _
  generalize W1 m ρ c = V at e0 ⊢
  simp only [hostOps0_1]
  after_results_simp
  exact e0
theorem W2_v6 : W2 m ρ c (Proc.devRef .tc main_v6) = Cert.ReferenceIdeal.ReadP.val_main_v6 (F := Ideal) (m ((c : Thread nD τ).loc main_arg1)) := by
  have e0 := W1_v6 m ρ c
  show StableHlo.after hostOps0_1 (W1 m ρ c) (Proc.devRef .tc main_v6) = _
  generalize W1 m ρ c = V at e0 ⊢
  simp only [hostOps0_1]
  after_results_simp
  exact e0
theorem W2_arg0 : W2 m ρ c (Proc.devRef .tc main_arg0) = m ((c : Thread nD τ).loc main_arg0) := by
  have e0 := W1_arg0 m ρ c
  show StableHlo.after hostOps0_1 (W1 m ρ c) (Proc.devRef .tc main_arg0) = _
  generalize W1 m ρ c = V at e0 ⊢
  simp only [hostOps0_1]
  after_results_simp
  exact e0
theorem W2_arg2 : W2 m ρ c (Proc.devRef .tc main_arg2) = m ((c : Thread nD τ).loc main_arg2) := by
  have e0 := W1_arg2 m ρ c
  show StableHlo.after hostOps0_1 (W1 m ρ c) (Proc.devRef .tc main_arg2) = _
  generalize W1 m ρ c = V at e0 ⊢
  simp only [hostOps0_1]
  after_results_simp
  exact e0
theorem W2_arg3 : W2 m ρ c (Proc.devRef .tc main_arg3) = m ((c : Thread nD τ).loc main_arg3) := by
  have e0 := W1_arg3 m ρ c
  show StableHlo.after hostOps0_1 (W1 m ρ c) (Proc.devRef .tc main_arg3) = _
  generalize W1 m ρ c = V at e0 ⊢
  simp only [hostOps0_1]
  after_results_simp
  exact e0
theorem W2_arg4 : W2 m ρ c (Proc.devRef .tc main_arg4) = m ((c : Thread nD τ).loc main_arg4) := by
  have e0 := W1_arg4 m ρ c
  show StableHlo.after hostOps0_1 (W1 m ρ c) (Proc.devRef .tc main_arg4) = _
  generalize W1 m ρ c = V at e0 ⊢
  simp only [hostOps0_1]
  after_results_simp
  exact e0
theorem W2_arg5 : W2 m ρ c (Proc.devRef .tc main_arg5) = m ((c : Thread nD τ).loc main_arg5) := by
  have e0 := W1_arg5 m ρ c
  show StableHlo.after hostOps0_1 (W1 m ρ c) (Proc.devRef .tc main_arg5) = _
  generalize W1 m ρ c = V at e0 ⊢
  simp only [hostOps0_1]
  after_results_simp
  exact e0

/-! ## At the first region's entry: the edges' normalisation as a column -/

/-- The normalisation of every edge laid out as a column: the second operand of both scaling regions. -/
theorem W3_v30 : W3 m ρ c (Proc.devRef .tc main_v30) = Cert.Spec.col (Cert.ReferenceIdeal.ReadP.val_main_v30 (F := Ideal) (m ((c : Thread nD τ).loc main_arg1))) := by
  have h : W3 m ρ c (Proc.devRef .tc main_v30)
      = shapeCast S1700000x1 (Cert.ReferenceIdeal.ReadP.val_main_v30 (F := Ideal) (m ((c : Thread nD τ).loc main_arg1))) shapeCasts_S1700000_S1700000x1 := by
    have e0 := W2_v14 m ρ c
    have e1 := W2_v3 m ρ c
    have e2 := W2_v6 m ρ c
    show StableHlo.after hostOps0_2 (W2 m ρ c) (Proc.devRef .tc main_v30) = _
    generalize W2 m ρ c = V at e0 e1 e2 ⊢
    simp only [hostOps0_2]
    after_results_simp
    rw [e0, e1, e2]
    simp only [Cert.ReferenceIdeal.ReadP.val_main_v30, Cert.ReferenceIdeal.ReadP.val_main_v29, Cert.ReferenceIdeal.ReadP.val_main_v28, Cert.ReferenceIdeal.ReadP.val_main_v27, Cert.ReferenceIdeal.ReadP.val_main_v26, Cert.ReferenceIdeal.ReadP.val_main_v25, Cert.ReferenceIdeal.ReadP.val_main_v24, Cert.ReferenceIdeal.ReadP.val_main_v23, Cert.ReferenceIdeal.ReadP.val_main_c_5, Cert.ReferenceIdeal.ReadP.val_main_c_4, Cert.ReferenceIdeal.ReadP.val_main_v22, Cert.ReferenceIdeal.ReadP.val_main_v21, Cert.ReferenceIdeal.ReadP.val_main_v20, Cert.ReferenceIdeal.ReadP.val_main_v19, Cert.ReferenceIdeal.ReadP.val_main_v18, Cert.ReferenceIdeal.ReadP.val_main_v17, Cert.ReferenceIdeal.ReadP.val_main_v16, Cert.ReferenceIdeal.ReadP.val_main_c_3, Cert.ReferenceIdeal.ReadP.val_main_c]
    generalize Cert.ReferenceIdeal.ReadP.val_main_v15 (F := Ideal) (m ((c : Thread nD τ).loc main_arg1)) = a0
    generalize Cert.ReferenceIdeal.ReadP.val_main_v3 (F := Ideal) (m ((c : Thread nD τ).loc main_arg1)) = a1
    generalize Cert.ReferenceIdeal.ReadP.val_main_v6 (F := Ideal) (m ((c : Thread nD τ).loc main_arg1)) = a2
    rfl
  exact h.trans (Cert.Spec.shapeCast_col _ _)
theorem W3_v3 : W3 m ρ c (Proc.devRef .tc main_v3) = Cert.ReferenceIdeal.ReadP.val_main_v3 (F := Ideal) (m ((c : Thread nD τ).loc main_arg1)) := by
  have e0 := W2_v3 m ρ c
  show StableHlo.after hostOps0_2 (W2 m ρ c) (Proc.devRef .tc main_v3) = _
  generalize W2 m ρ c = V at e0 ⊢
  simp only [hostOps0_2]
  after_results_simp
  exact e0
theorem W3_v6 : W3 m ρ c (Proc.devRef .tc main_v6) = Cert.ReferenceIdeal.ReadP.val_main_v6 (F := Ideal) (m ((c : Thread nD τ).loc main_arg1)) := by
  have e0 := W2_v6 m ρ c
  show StableHlo.after hostOps0_2 (W2 m ρ c) (Proc.devRef .tc main_v6) = _
  generalize W2 m ρ c = V at e0 ⊢
  simp only [hostOps0_2]
  after_results_simp
  exact e0
theorem W3_arg0 : W3 m ρ c (Proc.devRef .tc main_arg0) = m ((c : Thread nD τ).loc main_arg0) := by
  have e0 := W2_arg0 m ρ c
  show StableHlo.after hostOps0_2 (W2 m ρ c) (Proc.devRef .tc main_arg0) = _
  generalize W2 m ρ c = V at e0 ⊢
  simp only [hostOps0_2]
  after_results_simp
  exact e0
theorem W3_arg2 : W3 m ρ c (Proc.devRef .tc main_arg2) = m ((c : Thread nD τ).loc main_arg2) := by
  have e0 := W2_arg2 m ρ c
  show StableHlo.after hostOps0_2 (W2 m ρ c) (Proc.devRef .tc main_arg2) = _
  generalize W2 m ρ c = V at e0 ⊢
  simp only [hostOps0_2]
  after_results_simp
  exact e0
theorem W3_arg3 : W3 m ρ c (Proc.devRef .tc main_arg3) = m ((c : Thread nD τ).loc main_arg3) := by
  have e0 := W2_arg3 m ρ c
  show StableHlo.after hostOps0_2 (W2 m ρ c) (Proc.devRef .tc main_arg3) = _
  generalize W2 m ρ c = V at e0 ⊢
  simp only [hostOps0_2]
  after_results_simp
  exact e0
theorem W3_arg4 : W3 m ρ c (Proc.devRef .tc main_arg4) = m ((c : Thread nD τ).loc main_arg4) := by
  have e0 := W2_arg4 m ρ c
  show StableHlo.after hostOps0_2 (W2 m ρ c) (Proc.devRef .tc main_arg4) = _
  generalize W2 m ρ c = V at e0 ⊢
  simp only [hostOps0_2]
  after_results_simp
  exact e0
theorem W3_arg5 : W3 m ρ c (Proc.devRef .tc main_arg5) = m ((c : Thread nD τ).loc main_arg5) := by
  have e0 := W2_arg5 m ρ c
  show StableHlo.after hostOps0_2 (W2 m ρ c) (Proc.devRef .tc main_arg5) = _
  generalize W2 m ρ c = V at e0 ⊢
  simp only [hostOps0_2]
  after_results_simp
  exact e0

end Cert.KernelIdeal.Chain

end
-- ==== Proof.Region0.lean ====
/-
  The first matrix product of the program, as one whole-array function.

  The region walks the 100000 rows of the left operand `x` in 20 blocks of 5000 rows; at each block it multiplies the
  block (5000 x 128) by the whole right operand `W1` (128 x 64) and writes the 5000 x 64 product to the same rows of the
  output.  Entry (p', q) of the product of block `t` is the sum over k of x(5000 t + p', k) * W1(k, q), which is entry
  (5000 t + p', q) of the product of the whole arrays: a row of a matrix product depends on the same row of the left
  operand only.  The 20 output blocks tile the output (row r lies in block r / 5000), so the output array after the
  region is the matrix product of the two input arrays as the region finds them.
-/
import proofs.«143910_j5222680232345_1_alg».proof.Proof.Gen.KernelIdeal.Frame
import proofs.«143910_j5222680232345_1_alg».proof.Proof.LibDense
import proofs.«143910_j5222680232345_1_alg».proof.Proof.LibBiasRow
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.Dense

-- the buffer contents when the region is entered
variable (V : (c : Dev nD) → (b : Ref sig .tc) → Buf (Elt Ideal) ((c : Thread nD τ).loc b))

theorem zeros : (![0, 0] : Fin 2 → Nat) = fun _ => 0 := funext fun a => by fin_cases a <;> rfl

/-- The body's payload: both blocks change format (the identity on the extended reals) and are multiplied into a zero
    accumulator, which is the matrix product of the two blocks. -/
theorem payload_eq (x0 : Vec Ideal S5000x128 .f32) (x1 : Vec Ideal S128x64 .f32) :
    k0_pay1 x0 x1 = Cert.Dense.mm (M := 5000) (K := 128) (N := 64) x0 x1 := by
  unfold k0_pay1
  exact Cert.Dense.matmul_zero_eq_mm (M := 5000) (K := 128) (N := 64) dot_S5000x128_S128x64_S5000x64_1_0_0_1_n_n
    rfl rfl rfl rfl rfl rfl none x0 x1

/-- The block indices over the grid: the left operand's and the output's blocks are block `t` of the rows and the only
    block of the columns; the right operand's block is the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the left operand's block at point `t`, read off the array: row `p` of the block is row `5000 t + p` of
    the array, the columns are the array's. -/
theorem left_block_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → Elt Ideal .f32) i := by
  obtain ⟨e0, e1, -, -, -, -⟩ := block_indices t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The right operand's block at any point is the whole array. -/
theorem right_block_apply (c : Dev nD) (t : Fin cfg0.N) (y : S128x64.Idx) (i : S128x64.Idx)
    (h0 : (i 0).val = (y 0).val) (h1 : (i 1).val = (y 1).val) :
    (iblk0 V c 1 t : Vec Ideal S128x64 .f32) y = (V c main_arg2 : S128x64.Idx → Elt Ideal .f32) i := by
  obtain ⟨-, -, e2, e3, -, -⟩ := block_indices t
  unfold iblk0
  rw [View.read_apply]
  show V c main_arg2 _ = V c main_arg2 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 64 + 1 * (y 1).val = (i 1).val; rw [e3, h1]; omega

/-- Where an entry of the output's block at point `t` sits in the output array. -/
theorem out_block_emb (t : Fin cfg0.N) (j : S5000x64.Idx) :
    ((((cfg0.win 2).blk t).view.emb j : S100000x64.Idx) 0).val = 5000 * t.val + (j 0).val
      ∧ ((((cfg0.win 2).blk t).view.emb j : S100000x64.Idx) 1).val = (j 1).val := by
  obtain ⟨-, -, -, -, e4, e5⟩ := block_indices t
  constructor
  · show win0_2.index t (0 : Fin 2) * 5000 + 1 * (j 0).val = _; rw [e4]; omega
  · show win0_2.index t (1 : Fin 2) * 64 + 1 * (j 1).val = _; rw [e5]; omega

/-- WHAT POINT `t` WRITES BACK is block `t` of the matrix product of the two arrays as the region finds them. -/
theorem flushed_eq (c : Dev nD) (t : Fin cfg0.N) :
    (dat0 V c).flushed 2 t = ((cfg0.win 2).blk t).view.read (Elt Ideal)
      (Cert.Dense.mm (M := 100000) (K := 128) (N := 64) (V c main_arg0) (V c main_arg2)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x64) zeros]
  rw [payload_eq]
  funext j
  obtain ⟨o0, o1⟩ := out_block_emb t j
  show Cert.Dense.mm (M := 5000) (K := 128) (N := 64) (iblk0 V c 0 t) (iblk0 V c 1 t) j
    = Cert.Dense.mm (M := 100000) (K := 128) (N := 64) (V c main_arg0) (V c main_arg2) (((cfg0.win 2).blk t).view.emb j)
  refine Cert.BiasRow.mm_at _ _ _ _ j _ (fun k => ?_) (fun k => ?_)
  · exact left_block_apply V c t _ _ o0 rfl
  · exact right_block_apply V c t _ _ rfl o1

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v31).slice (win0_2.rect t)).set ↔ _
  rw [View.set_slice_whole, Rect.mem_set_unit]
  exact Iff.rfl

/-- The output's blocks tile the output array: row `r` lies in the block of point `r / 5000`. -/
theorem cover (i : S100000x64.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  refine ⟨⟨(i 0).val / 5000, by rw [hN]; omega⟩, flush0_2 _, ?_⟩
  rw [mem_block]
  obtain ⟨-, -, -, -, e4, e5⟩ := block_indices ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- THE OUTPUT ARRAY after the region: the matrix product of the two input arrays as the region finds them. -/
theorem final (V : (c : Dev nD) → (b : Ref sig .tc) → Buf (Elt Ideal) ((c : Thread nD τ).loc b)) (c : Dev nD) :
    (Cert.KernelIdeal.Gen.dat0 V c).arrAt 2 cfg0.N = Cert.Dense.mm (V c main_arg0) (V c main_arg2) :=
  (dat0 V c).arrAt_eq_of_cover 2 _ (fun t _ => flushed_eq V c t) cover

end Cert.KernelIdeal.Region0

end
-- ==== Proof.Region1.lean ====
/-
  The row-scaling region over 1700000 rows of 64 columns: the array it leaves is `scaleRows` of its two input arrays.

  The grid has 340 points. At point `t` the body sees rows `5000·t … 5000·t + 4999` of the gathered rows `X` (a
  5000 × 64 block) and the same rows of the per-row scale `s` (a 5000 × 1 block), multiplies every row of the block by
  its scale, and writes the result to rows `5000·t …` of the output. Entry `(p', q)` of the block's result is
  `X(5000·t + p', q) · s(5000·t + p', 0)`, which is entry `(5000·t + p', q)` of `scaleRows X s`; the 340 output blocks
  tile the array (row `r` lies in block `r / 5000`), so the array ends as `scaleRows X s`.
-/
import proofs.«143910_j5222680232345_1_alg».proof.Proof.Gen.KernelIdeal.Frame
import proofs.«143910_j5222680232345_1_alg».proof.Proof.LibDense
import proofs.«143910_j5222680232345_1_alg».proof.Proof.LibScaleRows
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.Dense Cert.Spec
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's result on a block of rows and the block of their scales is the rows scaled. -/
theorem body_eq (x0 : Vec Ideal S5000x64 .f32) (x1 : Vec Ideal S5000x1 .f32) :
    k1_pay1 x0 x1 = scaleRows x0 x1 := by
  unfold k1_pay1
  rw [shapeCast_self, shapeCast_self]
  exact vecScale x0 x1 broadcasts_S5000x1_S5000x64

/-- The block indices over the grid: every window's block at point `t` is block `t` along the rows and block `0`
    along the columns. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `scaleRows` of the two input arrays. -/
theorem written_eq (c : Dev nD) (t : Fin cfg1.N) :
    (dat1 V c).flushed 2 t
      = ((cfg1.win 2).blk t).view.read (Elt Ideal) (scaleRows (V c main_v38) (V c main_v30)) := by
  show (cfg1.win 2).cut (grid1.coords t) ((dat1 V c).after 2 t) = _
  rw [after1_2]
  unfold out1_2
  rw [View.canon_unit_zero origin]
  simp only [View.ld_unit_zero (S := S5000x64) origin, View.ld_unit_zero (S := S5000x1) origin]
  rw [body_eq]
  obtain ⟨e0, e1, e2, e3, e4, e5⟩ := block_index t
  funext j
  show scaleRows (iblk1 V c 0 t) (iblk1 V c 1 t) j
      = scaleRows (V c main_v38) (V c main_v30) (((cfg1.win 2).blk t).view.emb j)
  refine scaleRows_at (V c main_v38) (V c main_v30) (iblk1 V c 0 t) (iblk1 V c 1 t) j _ ?_ ?_
  · show V c main_v38 (((cfg1.win 0).blk t).view.emb j) = V c main_v38 (((cfg1.win 2).blk t).view.emb j)
    refine congrArg (V c main_v38) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 64 + 1 * (j 1).val = win1_2.index t (1 : Fin 2) * 64 + 1 * (j 1).val
      omega
  · show V c main_v30 (((cfg1.win 1).blk t).view.emb (ix2 (c0 j) (0 : Fin 1)))
        = V c main_v30 (ix2 (c0 (((cfg1.win 2).blk t).view.emb j)) (0 : Fin 1))
    refine congrArg (V c main_v30) (funext fun a => Fin.ext ?_)
    match a with
    | ⟨0, _⟩ =>
      show win1_1.index t (0 : Fin 2) * 5000 + 1 * (j 0).val = win1_2.index t (0 : Fin 2) * 5000 + 1 * (j 0).val
      omega
    | ⟨1, _⟩ =>
      show win1_1.index t (1 : Fin 2) * 1 + 1 * 0 = 0
      omega

/-- An index of the output array lies in point `t`'s block iff each coordinate lies in the block's range. -/
theorem mem_block (t : Fin cfg1.N) (i : S1700000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v39).slice (win1_2.rect t)).set ↔ _
  rw [View.set_slice_whole, Rect.mem_set_unit]
  exact Iff.rfl

/-- Every index of the output array lies in the block of the point `row / 5000`. -/
theorem covered (i : S1700000x64.Idx) :
    ∃ t : Fin cfg1.N, (cfg1.win 2).flush t = true ∧ i ∈ ((cfg1.win 2).blk t).view.set := by
  have hi0 : (i 0).val < 1700000 := (i 0).isLt
  have hi1 : (i 1).val < 64 := (i 1).isLt
  have hN : cfg1.N = 340 := rfl
  let t : Fin cfg1.N := ⟨(i 0).val / 5000, by rw [hN]; omega⟩
  obtain ⟨e0, e1, e2, e3, e4, e5⟩ := block_index t
  have ht : t.val = (i 0).val / 5000 := rfl
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- The output array after the region: the gathered rows, each scaled by its own scale. -/
theorem final (c : Dev nD) :
    (dat1 V c).arrAt 2 cfg1.N = scaleRows (V c main_v38) (V c main_v30) :=
  (dat1 V c).arrAt_eq_of_cover 2 _ (fun t _ => written_eq V c t) (covered)

end Cert.KernelIdeal.Region1

end
-- ==== Proof.Region2.lean ====
/-
  The rectified bias layer, region by blocks to the whole array.

  The region's body adds a 64-vector, laid out as one row, to every row of a block of 5000 rows and takes the maximum
  with zero.  Its grid has 20 points; at point t the input block and the output block are rows 5000·t … 5000·t + 4999 of
  their 100000-row arrays and the vector is taken whole.  An entry of the layer depends on the entry of the input there
  and on the vector's entry of its column, so the block the body leaves at point t is block t of the layer of the whole
  input array; the 20 blocks cover the output array, which therefore ends holding the layer of the whole input array.
-/
import proofs.«143910_j5222680232345_1_alg».proof.Proof.Gen.KernelIdeal.Frame
import proofs.«143910_j5222680232345_1_alg».proof.Proof.LibDense
import proofs.«143910_j5222680232345_1_alg».proof.Proof.LibBiasRow
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a rank-2 block, as a constant function. -/
theorem zeros2 : (![0, 0] : Fin 2 → Nat) = fun _ => 0 := funext fun a => by fin_cases a <;> rfl
/-- The zero offset of a rank-1 block, as a constant function. -/
theorem zeros1 : (![0] : Fin 1 → Nat) = fun _ => 0 := funext fun a => by fin_cases a; rfl

/-- The body's payload: the vector laid out as a row, added to every row of the block, and rectified. -/
theorem pay_eq (x0 : Vec Ideal S5000x64 .f32) (x1 : Vec Ideal S64 .f32) :
    k2_pay1 x0 x1 = Cert.Dense.reluBias (M := 5000) (N := 64) x0 (Cert.Dense.row (N := 64) x1) := by
  unfold k2_pay1
  rw [shapeCast_self, Cert.Dense.shapeCast_row]
  exact Cert.Dense.vecReluBias (M := 5000) (N := 64) x0 (Cert.Dense.row (N := 64) x1) broadcasts_S1x64_S5000x64

/-- Block against array: an entry of the layer of a block is the entry of the layer of the whole array at the same
    column, when the block's entry is the array's there and the two vectors agree. -/
theorem block_at (X : Vec Ideal S100000x64 .f32) (b : Vec Ideal S64 .f32) (x0 : Vec Ideal S5000x64 .f32) (x1 : Vec Ideal S64 .f32)
    (j : S5000x64.Idx) (i : S100000x64.Idx) (h0 : x0 j = X i) (hcol : (i 1).val = (j 1).val)
    (h1 : ∀ q : Fin 64, x1 (ix1 q) = b (ix1 q)) :
    Cert.Dense.reluBias (M := 5000) (N := 64) x0 (Cert.Dense.row (N := 64) x1) j
      = Cert.Dense.reluBias (M := 100000) (N := 64) X (Cert.Dense.row (N := 64) b) i := by
  refine Cert.BiasRow.reluBias_at (M := 100000) (M' := 5000) (N := 64) (N' := 64) X (Cert.Dense.row (N := 64) b) x0
    (Cert.Dense.row (N := 64) x1) j i h0 ?_
  have e : Cert.Dense.c1 (a := 100000) (b := 64) i = Cert.Dense.c1 (a := 5000) (b := 64) j := Fin.ext hcol
  show x1 (ix1 (Cert.Dense.c1 (a := 5000) (b := 64) j)) = b (ix1 (Cert.Dense.c1 (a := 100000) (b := 64) i))
  rw [e, h1]

/-- The printed index maps, decided over the 20 grid points: the input block and the output block sit at block row
    t, block column 0; the vector is taken at block 0. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the layer of the whole input array. -/
theorem flushed_eq (c : Dev nD) (t : Fin cfg2.N) :
    (dat2 V c).flushed 2 t = ((cfg2.win 2).blk t).view.read (Elt Ideal)
      (Cert.Dense.reluBias (M := 100000) (N := 64) (V c main_v42) (Cert.Dense.row (N := 64) (V c main_arg3))) := by
  show (cfg2.win 2).cut (grid2.coords t) ((dat2 V c).after 2 t) = _
  rw [after2_2]
  unfold out2_2
  rw [View.canon_unit_zero zeros2]
  simp only [View.ld_unit_zero (S := S5000x64) zeros2, View.ld_unit_zero (S := S64) zeros1]
  rw [pay_eq]
  obtain ⟨e00, e01, e10, e20, e21⟩ := idx_facts t
  funext j
  refine block_at (V c main_v42) (V c main_arg3) (iblk2 V c 0 t) (iblk2 V c 1 t) j (((cfg2.win 2).blk t).view.emb j) ?_ ?_ ?_
  · show V c main_v42 (((cfg2.win 0).blk t).view.emb j) = V c main_v42 (((cfg2.win 2).blk t).view.emb j)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  · show win2_2.index t (1 : Fin 2) * 64 + 1 * (j 1).val = (j 1).val
    omega
  · intro q
    show V c main_arg3 (((cfg2.win 1).blk t).view.emb (ix1 q)) = V c main_arg3 (ix1 q)
    refine congrArg _ (funext fun a => Fin.ext ?_)
    match a with
    | ⟨0, _⟩ => show win2_1.index t (0 : Fin 1) * 64 + 1 * q.val = q.val; omega

/-- An index of the output array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v43).slice (win2_2.rect t)).set ↔ _
  rw [View.set_slice_whole, Rect.mem_set_unit]
  exact Iff.rfl

/-- Every index of the output array is in some point's block: row r is in block r / 5000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := rfl
  let t : Fin cfg2.N := ⟨(i 0).val / 5000, by rw [hN]; omega⟩
  have ht : t.val = (i 0).val / 5000 := rfl
  obtain ⟨e00, e01, e10, e20, e21⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region is the rectified bias layer of the whole input array. -/
theorem final (V : (c : Dev nD) → (b : Ref sig .tc) → Buf (Elt Ideal) ((c : Thread nD τ).loc b)) (c : Dev nD) :
    (Cert.KernelIdeal.Gen.dat2 V c).arrAt 2 cfg2.N = Cert.Dense.reluBias (V c main_v42) (Cert.Dense.row (V c main_arg3)) :=
  (dat2 V c).arrAt_eq_of_cover 2 _ (fun t _ => flushed_eq V c t) cover

end Cert.KernelIdeal.Region2

end
-- ==== Proof.RefStages.lean ====
/-
  The reference program's stages that the kernel computes inside its regions, as the plain functions of the extended reals.

  The reference is a two-layer graph convolution: `x W₁`, its rows gathered along the edges, every gathered row scaled by
  the edge's normalisation, the scaled rows summed at their destination nodes, a bias added and the result rectified;
  the same again with `W₂`, and a row-wise log-softmax of the biased sums. Here each of the six stages that the kernel
  hands to its vector unit is read off the reference's own operations: the two dot products are matrix products
  (`mm`), the two scalings are `scaleRows` by the normalisation laid out as a column, the rectified bias is `reluBias`,
  and the shifted log-softmax with its two keep-dimension reductions is `lsmBias`. The normalisation is computed
  twice by the reference, by the same operations of the same edge list: the two are one array.
-/
import proofs.«143910_j5222680232345_1_alg».proof.Proof.ReadP
import proofs.«143910_j5222680232345_1_alg».proof.Proof.LibDense
import proofs.«143910_j5222680232345_1_alg».proof.Proof.LibBiasRow
import proofs.«143910_j5222680232345_1_alg».proof.Proof.LibLogSoftmax
import proofs.«143910_j5222680232345_1_alg».proof.Proof.LibScaleRows

set_option maxRecDepth 16384

noncomputable section

open scoped BigOperators

namespace Cert.ReferenceIdeal.Stages

open Idealize.ShloMosaic Idealize.ShloMosaic.ValueIdx
open Cert.ReferenceIdeal Cert.ReferenceIdeal.Gen Cert.ReferenceIdeal.ReadP
open Cert.Dense Cert.BiasRow Cert.LogSoftmax Cert.Spec

/-- The first layer's dot product is the matrix product `x W₁`. -/
theorem v7_eq (x0 : (⟨S100000x128, .f32⟩ : BufTy).Contents (Elt Ideal)) (x2 : (⟨S128x64, .f32⟩ : BufTy).Contents (Elt Ideal)) :
    val_main_v7 (F := Ideal) x0 x2 = mm x0 x2 := by
  unfold val_main_v7
  exact hostDot_eq_mm dot_S100000x128_S128x64_S100000x64_1_0_0_1_n_n rfl rfl rfl rfl rfl rfl none x0 x2

/-- The first layer's messages: the gathered rows, each scaled by its edge's normalisation. -/
theorem v40_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) :
    val_main_v40 (F := Ideal) x0 x1 x2
      = scaleRows (val_main_v37 (F := Ideal) x0 x1 x2) (col (val_main_v30 (F := Ideal) x1)) := by
  unfold val_main_v40 val_main_v39 val_main_v38
  rw [bcast_col (val_main_v30 (F := Ideal) x1) bcast_S1700000_S1700000x1_0]
  exact hostScale _ _ bcast_S1700000x1_S1700000x64_0_1

/-- The hidden layer: the summed messages, biased and rectified. -/
theorem v47_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) :
    val_main_v47 (F := Ideal) x0 x1 x2 x3 = reluBias (val_main_v43 (F := Ideal) x0 x1 x2) (row x3) := by
  unfold val_main_v47 val_main_v46 val_main_v45 val_main_v44 val_main_call1_v0 val_main_call1_cst
  exact hostReluBias (val_main_v43 (F := Ideal) x0 x1 x2) x3 bcast_S64_S1x64_1 bcast_S1x64_S100000x64_0_1 bcast_S_S100000x64

/-- The second layer's dot product is the matrix product `h W₂`. -/
theorem v48_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) :
    val_main_v48 (F := Ideal) x0 x1 x2 x3 x4 = mm (val_main_v47 (F := Ideal) x0 x1 x2 x3) x4 := by
  unfold val_main_v48
  exact hostDot_eq_mm dot_S100000x64_S64x40_S100000x40_1_0_0_1_n_n rfl rfl rfl rfl rfl rfl none _ x4

/-! The normalisation is computed a second time for the second layer, by the same operations of the same edge list: stage
    by stage the second computation is the first. -/

theorem twin_cst_9 : val_main_cst_9 (F := Ideal) = val_main_cst (F := Ideal) := by
  unfold val_main_cst_9 val_main_cst
  first | rfl | simp only [id]
theorem twin_v49 : val_main_v49 (F := Ideal) = val_main_v8 (F := Ideal) := by
  unfold val_main_v49 val_main_v8
  first | rfl | simp only [twin_cst_9]
theorem twin_cst_10 : val_main_cst_10 (F := Ideal) = val_main_cst_0 (F := Ideal) := by
  unfold val_main_cst_10 val_main_cst_0
  first | rfl | simp only [twin_cst_9, twin_v49]
theorem twin_v50 : val_main_v50 (F := Ideal) = val_main_v9 (F := Ideal) := by
  unfold val_main_v50 val_main_v9
  first | rfl | simp only [twin_cst_9, twin_v49, twin_cst_10]
theorem twin_v51 (x1 : (⟨S2x1600000, .i32⟩ : BufTy).Contents (Elt Ideal)) : val_main_v51 (F := Ideal) x1 = val_main_v10 (F := Ideal) x1 := by
  unfold val_main_v51 val_main_v10
  first | rfl | simp only [twin_cst_9, twin_v49, twin_cst_10, twin_v50]
theorem twin_v52 (x1 : (⟨S2x1600000, .i32⟩ : BufTy).Contents (Elt Ideal)) : val_main_v52 (F := Ideal) x1 = val_main_v11 (F := Ideal) x1 := by
  unfold val_main_v52 val_main_v11
  first | rfl | simp only [twin_cst_9, twin_v49, twin_cst_10, twin_v50, twin_v51]
theorem twin_cst_11 : val_main_cst_11 (F := Ideal) = val_main_cst_1 (F := Ideal) := by
  unfold val_main_cst_11 val_main_cst_1
  first | rfl | simp only [twin_cst_9, twin_v49, twin_cst_10, twin_v50, twin_v51, twin_v52]
theorem twin_v53 : val_main_v53 (F := Ideal) = val_main_v12 (F := Ideal) := by
  unfold val_main_v53 val_main_v12
  first | rfl | simp only [twin_cst_9, twin_v49, twin_cst_10, twin_v50, twin_v51, twin_v52, twin_cst_11]
theorem twin_v54 (x1 : (⟨S2x1600000, .i32⟩ : BufTy).Contents (Elt Ideal)) : val_main_v54 (F := Ideal) x1 = val_main_v13 (F := Ideal) x1 := by
  unfold val_main_v54 val_main_v13
  first | rfl | simp only [twin_cst_9, twin_v49, twin_cst_10, twin_v50, twin_v51, twin_v52, twin_cst_11, twin_v53]
theorem twin_v55 (x1 : (⟨S2x1600000, .i32⟩ : BufTy).Contents (Elt Ideal)) : val_main_v55 (F := Ideal) x1 = val_main_v14 (F := Ideal) x1 := by
  unfold val_main_v55 val_main_v14
  first | rfl | simp only [twin_cst_9, twin_v49, twin_cst_10, twin_v50, twin_v51, twin_v52, twin_cst_11, twin_v53, twin_v54]
theorem twin_cst_12 : val_main_cst_12 (F := Ideal) = val_main_cst_2 (F := Ideal) := by
  unfold val_main_cst_12 val_main_cst_2
  first | rfl | simp only [twin_cst_9, twin_v49, twin_cst_10, twin_v50, twin_v51, twin_v52, twin_cst_11, twin_v53, twin_v54, twin_v55]
theorem twin_call2_v0 : val_main_call2_v0 (F := Ideal) = val_main_call0_v0 (F := Ideal) := by
  unfold val_main_call2_v0 val_main_call0_v0
  first | rfl | simp only [twin_cst_9, twin_v49, twin_cst_10, twin_v50, twin_v51, twin_v52, twin_cst_11, twin_v53, twin_v54, twin_v55, twin_cst_12]
theorem twin_call2_v1 : val_main_call2_v1 (F := Ideal) = val_main_call0_v1 (F := Ideal) := by
  unfold val_main_call2_v1 val_main_call0_v1
  first | rfl | simp only [twin_cst_9, twin_v49, twin_cst_10, twin_v50, twin_v51, twin_v52, twin_cst_11, twin_v53, twin_v54, twin_v55, twin_cst_12, twin_call2_v0]
theorem twin_v56 (x1 : (⟨S2x1600000, .i32⟩ : BufTy).Contents (Elt Ideal)) : val_main_v56 (F := Ideal) x1 = val_main_v15 (F := Ideal) x1 := by
  unfold val_main_v56 val_main_v15
  first | rfl | simp only [twin_cst_9, twin_v49, twin_cst_10, twin_v50, twin_v51, twin_v52, twin_cst_11, twin_v53, twin_v54, twin_v55, twin_cst_12, twin_call2_v0, twin_call2_v1]
theorem twin_c_13 : val_main_c_13 (F := Ideal) = val_main_c (F := Ideal) := by
  unfold val_main_c_13 val_main_c
  first | rfl | simp only [twin_cst_9, twin_v49, twin_cst_10, twin_v50, twin_v51, twin_v52, twin_cst_11, twin_v53, twin_v54, twin_v55, twin_cst_12, twin_call2_v0, twin_call2_v1, twin_v56]
theorem twin_v57 : val_main_v57 (F := Ideal) = val_main_v16 (F := Ideal) := by
  unfold val_main_v57 val_main_v16
  first | rfl | simp only [twin_cst_9, twin_v49, twin_cst_10, twin_v50, twin_v51, twin_v52, twin_cst_11, twin_v53, twin_v54, twin_v55, twin_cst_12, twin_call2_v0, twin_call2_v1, twin_v56, twin_c_13]
theorem twin_v58 (x1 : (⟨S2x1600000, .i32⟩ : BufTy).Contents (Elt Ideal)) : val_main_v58 (F := Ideal) x1 = val_main_v17 (F := Ideal) x1 := by
  unfold val_main_v58 val_main_v17
  first | rfl | simp only [twin_cst_9, twin_v49, twin_cst_10, twin_v50, twin_v51, twin_v52, twin_cst_11, twin_v53, twin_v54, twin_v55, twin_cst_12, twin_call2_v0, twin_call2_v1, twin_v56, twin_c_13, twin_v57]
theorem twin_c_14 : val_main_c_14 (F := Ideal) = val_main_c_3 (F := Ideal) := by
  unfold val_main_c_14 val_main_c_3
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58]
theorem twin_v59 : val_main_v59 (F := Ideal) = val_main_v18 (F := Ideal) := by
  unfold val_main_v59 val_main_v18
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14]
theorem twin_v60 (x1 : (⟨S2x1600000, .i32⟩ : BufTy).Contents (Elt Ideal)) : val_main_v60 (F := Ideal) x1 = val_main_v19 (F := Ideal) x1 := by
  unfold val_main_v60 val_main_v19
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59]
theorem twin_v61 (x1 : (⟨S2x1600000, .i32⟩ : BufTy).Contents (Elt Ideal)) : val_main_v61 (F := Ideal) x1 = val_main_v20 (F := Ideal) x1 := by
  unfold val_main_v61 val_main_v20
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60]
theorem twin_v62 (x1 : (⟨S2x1600000, .i32⟩ : BufTy).Contents (Elt Ideal)) : val_main_v62 (F := Ideal) x1 = val_main_v21 (F := Ideal) x1 := by
  unfold val_main_v62 val_main_v21
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61]
theorem twin_v63 (x1 : (⟨S2x1600000, .i32⟩ : BufTy).Contents (Elt Ideal)) : val_main_v63 (F := Ideal) x1 = val_main_v22 (F := Ideal) x1 := by
  unfold val_main_v63 val_main_v22
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62]
theorem twin_c_15 : val_main_c_15 (F := Ideal) = val_main_c_4 (F := Ideal) := by
  unfold val_main_c_15 val_main_c_4
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62, twin_v63]
theorem twin_v64 : val_main_v64 (F := Ideal) = val_main_v23 (F := Ideal) := by
  unfold val_main_v64 val_main_v23
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62, twin_v63, twin_c_15]
theorem twin_v65 (x1 : (⟨S2x1600000, .i32⟩ : BufTy).Contents (Elt Ideal)) : val_main_v65 (F := Ideal) x1 = val_main_v24 (F := Ideal) x1 := by
  unfold val_main_v65 val_main_v24
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62, twin_v63, twin_c_15, twin_v64]
theorem twin_c_16 : val_main_c_16 (F := Ideal) = val_main_c_5 (F := Ideal) := by
  unfold val_main_c_16 val_main_c_5
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62, twin_v63, twin_c_15, twin_v64, twin_v65]
theorem twin_v66 : val_main_v66 (F := Ideal) = val_main_v25 (F := Ideal) := by
  unfold val_main_v66 val_main_v25
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62, twin_v63, twin_c_15, twin_v64, twin_v65, twin_c_16]
theorem twin_v67 (x1 : (⟨S2x1600000, .i32⟩ : BufTy).Contents (Elt Ideal)) : val_main_v67 (F := Ideal) x1 = val_main_v26 (F := Ideal) x1 := by
  unfold val_main_v67 val_main_v26
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62, twin_v63, twin_c_15, twin_v64, twin_v65, twin_c_16, twin_v66]
theorem twin_v68 (x1 : (⟨S2x1600000, .i32⟩ : BufTy).Contents (Elt Ideal)) : val_main_v68 (F := Ideal) x1 = val_main_v27 (F := Ideal) x1 := by
  unfold val_main_v68 val_main_v27
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62, twin_v63, twin_c_15, twin_v64, twin_v65, twin_c_16, twin_v66, twin_v67]
theorem twin_v69 (x1 : (⟨S2x1600000, .i32⟩ : BufTy).Contents (Elt Ideal)) : val_main_v69 (F := Ideal) x1 = val_main_v28 (F := Ideal) x1 := by
  unfold val_main_v69 val_main_v28
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62, twin_v63, twin_c_15, twin_v64, twin_v65, twin_c_16, twin_v66, twin_v67, twin_v68]
theorem twin_v70 (x1 : (⟨S2x1600000, .i32⟩ : BufTy).Contents (Elt Ideal)) : val_main_v70 (F := Ideal) x1 = val_main_v29 (F := Ideal) x1 := by
  unfold val_main_v70 val_main_v29
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62, twin_v63, twin_c_15, twin_v64, twin_v65, twin_c_16, twin_v66, twin_v67, twin_v68, twin_v69]
theorem twin_v71 (x1 : (⟨S2x1600000, .i32⟩ : BufTy).Contents (Elt Ideal)) : val_main_v71 (F := Ideal) x1 = val_main_v30 (F := Ideal) x1 := by
  unfold val_main_v71 val_main_v30
  first | rfl | simp only [twin_cst_9, twin_v49, twin_cst_10, twin_v50, twin_v51, twin_v52, twin_cst_11, twin_v53, twin_v54, twin_v55, twin_cst_12, twin_call2_v0, twin_call2_v1, twin_v56, twin_c_13, twin_v57, twin_v58, twin_c_14, twin_v59, twin_v60, twin_v61, twin_v62, twin_v63, twin_c_15, twin_v64, twin_v65, twin_c_16, twin_v66, twin_v67, twin_v68, twin_v69, twin_v70]

/-- The normalisation computed for the second layer is the one computed for the first. -/
theorem v71_eq (x1 : (⟨S2x1600000, .i32⟩ : BufTy).Contents (Elt Ideal)) :
    val_main_v71 (F := Ideal) x1 = val_main_v30 (F := Ideal) x1 := twin_v71 x1

/-- The second layer's messages: the gathered rows, each scaled by its edge's normalisation. -/
theorem v81_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) :
    val_main_v81 (F := Ideal) x0 x1 x2 x3 x4
      = scaleRows (val_main_v78 (F := Ideal) x0 x1 x2 x3 x4) (col (val_main_v30 (F := Ideal) x1)) := by
  unfold val_main_v81 val_main_v80 val_main_v79
  rw [v71_eq, bcast_col (val_main_v30 (F := Ideal) x1) bcast_S1700000_S1700000x1_0]
  exact hostScale _ _ bcast_S1700000x1_S1700000x40_0_1

/-- The host's shifted log-softmax of an array `Z`: the row maxima (from −∞, and once more against −∞) spread back over
    the rows and subtracted, the logarithm of the row sums of the exponentials spread back and subtracted. -/
theorem hostLsm (Z : FVec Ideal S100000x40 .f32) :
    subf (subf Z (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce FloatOps.maximumf Z (constant (F := Ideal) S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf Z (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce FloatOps.maximumf Z (constant (F := Ideal) S_ .f32 0xFF800000#32) reducesTo_S100000x40_S100000_d1 h_S_)))))) (constant (F := Ideal) S_ .f32 0x00000000#32) reducesTo_S100000x40_S100000_d1 h_S_)))) = lsm Z := by
  have hM : ∀ (p : Fin 100000) (k : Fin 40), (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce FloatOps.maximumf Z (constant (F := Ideal) S_ .f32 0xFF800000#32) reducesTo_S100000x40_S100000_d1 h_S_)))) (ix2 p k) = rowMax Z p := fun p k =>
    hostColMax Z reducesTo_S100000x40_S100000_d1 (by decide) h_S_ bcast_S_S100000 bcast_S100000_S100000x1_0
      bcast_S100000x1_S100000x40_0_1 p k
  generalize (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce FloatOps.maximumf Z (constant (F := Ideal) S_ .f32 0xFF800000#32) reducesTo_S100000x40_S100000_d1 h_S_)))) = Mx at hM ⊢
  have hL : ∀ (p : Fin 100000) (k : Fin 40), (broadcastInDim S100000x40 ![0, 1] bcast_S100000x1_S100000x40_0_1 (Host.log (broadcastInDim S100000x1 ![0] bcast_S100000_S100000x1_0 (Host.reduceAdd (Host.exp (subf Z Mx)) (constant (F := Ideal) S_ .f32 0x00000000#32) reducesTo_S100000x40_S100000_d1 h_S_)))) (ix2 p k)
      = Ideal.log (∑ j : Fin 40, Ideal.exp (Z (ix2 p j) - Mx (ix2 p j))) := fun p k =>
    hostColLogSum (Host.exp (subf Z Mx)) reducesTo_S100000x40_S100000_d1 (by decide) h_S_ bcast_S100000_S100000x1_0
      bcast_S100000x1_S100000x40_0_1 p k
  generalize (broadcastInDim S100000x40 ![0, 1] bcast_S100000x1_S100000x40_0_1 (Host.log (broadcastInDim S100000x1 ![0] bcast_S100000_S100000x1_0 (Host.reduceAdd (Host.exp (subf Z Mx)) (constant (F := Ideal) S_ .f32 0x00000000#32) reducesTo_S100000x40_S100000_d1 h_S_)))) = L at hL ⊢
  exact lsm_of_parts Z Mx L hM hL

/-- The result: the row-wise log-softmax of the second layer's summed messages with the bias added. -/
theorem v88_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) :
    val_main_v88 (F := Ideal) x0 x1 x2 x3 x4 x5 = lsmBias (val_main_v84 (F := Ideal) x0 x1 x2 x3 x4) (row x5) := by
  have hz : val_main_v87 (F := Ideal) x0 x1 x2 x3 x4 x5 = addRow (val_main_v84 (F := Ideal) x0 x1 x2 x3 x4) (row x5) := by
    unfold val_main_v87 val_main_v86 val_main_v85
    exact hostAddRow _ x5 bcast_S40_S1x40_1 bcast_S1x40_S100000x40_0_1
  unfold lsmBias
  rw [← hz]
  unfold val_main_v88 val_main_call3_v10 val_main_call3_v9 val_main_call3_v8 val_main_call3_v7 val_main_call3_v6
    val_main_call3_v5 val_main_call3_v4 val_main_call3_v3 val_main_call3_v2 val_main_call3_v1 val_main_call3_v0
    val_main_call3_cst val_main_call3_cst_0 val_main_call3_cst_1
  generalize val_main_v87 (F := Ideal) x0 x1 x2 x3 x4 x5 = Z
  exact hostLsm Z

end Cert.ReferenceIdeal.Stages

end
-- ==== Proof.ChainB.lean ====
/-
  The idealized kernel program's buffers through its first layer, as the reference's own stages.

  Region by region and stretch by stretch: the first region leaves `x W₁`; the host gathers its rows along the
  edges; the second region scales every gathered row by its edge's normalisation; the host sums the scaled rows at
  their destination nodes; the third region adds the bias and rectifies. Each buffer so written holds the reference's
  stage of the same arguments, and the buffers read later (the edge lists, the normalisation, the remaining arguments)
  pass through every segment unchanged.
-/
import proofs.«143910_j5222680232345_1_alg».proof.Proof.Gen.KernelIdeal.Frame
import proofs.«143910_j5222680232345_1_alg».proof.Proof.ChainA
import proofs.«143910_j5222680232345_1_alg».proof.Proof.Region0
import proofs.«143910_j5222680232345_1_alg».proof.Proof.Region1
import proofs.«143910_j5222680232345_1_alg».proof.Proof.Region2
import proofs.«143910_j5222680232345_1_alg».proof.Proof.RefStages
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The first dense product -/

/-- The first region leaves the matrix product of the features and the first weight. -/
theorem W4_v31 : W4 m ρ c (Proc.devRef .tc main_v31) = Cert.ReferenceIdeal.ReadP.val_main_v7 (F := Ideal) (m ((c : Thread nD τ).loc main_arg0)) (m ((c : Thread nD τ).loc main_arg2)) := by
  refine (W4_arr m ρ c 2).trans ((Cert.KernelIdeal.Region0.final (V3 m ρ) c).trans ?_)
  rw [show V3 m ρ c main_arg0 = _ from W3_arg0 m ρ c, show V3 m ρ c main_arg2 = _ from W3_arg2 m ρ c]
  exact (Cert.ReferenceIdeal.Stages.v7_eq _ _).symm
theorem W4_v3 : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)
theorem W4_v6 : W4 m ρ c (Proc.devRef .tc main_v6) = Cert.ReferenceIdeal.ReadP.val_main_v6 (F := Ideal) (m ((c : Thread nD τ).loc main_arg1)) :=
  (W4_of_ne m ρ c main_v6 (by decide)).trans (W3_v6 m ρ c)
theorem W4_v30 : W4 m ρ c (Proc.devRef .tc main_v30) = Cert.Spec.col (Cert.ReferenceIdeal.ReadP.val_main_v30 (F := Ideal) (m ((c : Thread nD τ).loc main_arg1))) :=
  (W4_of_ne m ρ c main_v30 (by decide)).trans (W3_v30 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! ## Its rows gathered along the edges -/

/-- The rows of the product at the edges' sources. -/
theorem W5_v38 : W5 m ρ c (Proc.devRef .tc main_v38) = Cert.ReferenceIdeal.ReadP.val_main_v37 (F := Ideal) (m ((c : Thread nD τ).loc main_arg0)) (m ((c : Thread nD τ).loc main_arg1)) (m ((c : Thread nD τ).loc main_arg2)) := by
  have e0 := W4_v31 m ρ c
  have e1 := W4_v3 m ρ c
  show StableHlo.after hostOps1 (W4 m ρ c) (Proc.devRef .tc main_v38) = _
  generalize W4 m ρ c = V at e0 e1 ⊢
  simp only [hostOps1]
  after_results_simp
  rw [e0, e1]
  simp only [Cert.ReferenceIdeal.ReadP.val_main_v37, Cert.ReferenceIdeal.ReadP.val_main_v36, Cert.ReferenceIdeal.ReadP.val_main_v35, Cert.ReferenceIdeal.ReadP.val_main_v34, Cert.ReferenceIdeal.ReadP.val_main_v33, Cert.ReferenceIdeal.ReadP.val_main_v32, Cert.ReferenceIdeal.ReadP.val_main_v31, Cert.ReferenceIdeal.ReadP.val_main_c_7, Cert.ReferenceIdeal.ReadP.val_main_c_6]
  generalize Cert.ReferenceIdeal.ReadP.val_main_v7 (F := Ideal) (m ((c : Thread nD τ).loc main_arg0)) (m ((c : Thread nD τ).loc main_arg2)) = a0
  generalize Cert.ReferenceIdeal.ReadP.val_main_v3 (F := Ideal) (m ((c : Thread nD τ).loc main_arg1)) = a1
  rfl
theorem W5_v3 : W5 m ρ c (Proc.devRef .tc main_v3) = Cert.ReferenceIdeal.ReadP.val_main_v3 (F := Ideal) (m ((c : Thread nD τ).loc main_arg1)) := by
  have e0 := W4_v3 m ρ c
  show StableHlo.after hostOps1 (W4 m ρ c) (Proc.devRef .tc main_v3) = _
  generalize W4 m ρ c = V at e0 ⊢
  simp only [hostOps1]
  after_results_simp
  exact e0
theorem W5_v6 : W5 m ρ c (Proc.devRef .tc main_v6) = Cert.ReferenceIdeal.ReadP.val_main_v6 (F := Ideal) (m ((c : Thread nD τ).loc main_arg1)) := by
  have e0 := W4_v6 m ρ c
  show StableHlo.after hostOps1 (W4 m ρ c) (Proc.devRef .tc main_v6) = _
  generalize W4 m ρ c = V at e0 ⊢
  simp only [hostOps1]
  after_results_simp
  exact e0
theorem W5_v30 : W5 m ρ c (Proc.devRef .tc main_v30) = Cert.Spec.col (Cert.ReferenceIdeal.ReadP.val_main_v30 (F := Ideal) (m ((c : Thread nD τ).loc main_arg1))) := by
  have e0 := W4_v30 m ρ c
  show StableHlo.after hostOps1 (W4 m ρ c) (Proc.devRef .tc main_v30) = _
  generalize W4 m ρ c = V at e0 ⊢
  simp only [hostOps1]
  after_results_simp
  exact e0
theorem W5_arg3 : W5 m ρ c (Proc.devRef .tc main_arg3) = m ((c : Thread nD τ).loc main_arg3) := by
  have e0 := W4_arg3 m ρ c
  show StableHlo.after hostOps1 (W4 m ρ c) (Proc.devRef .tc main_arg3) = _
  generalize W4 m ρ c = V at e0 ⊢
  simp only [hostOps1]
  after_results_simp
  exact e0
theorem W5_arg4 : W5 m ρ c (Proc.devRef .tc main_arg4) = m ((c : Thread nD τ).loc main_arg4) := by
  have e0 := W4_arg4 m ρ c
  show StableHlo.after hostOps1 (W4 m ρ c) (Proc.devRef .tc main_arg4) = _
  generalize W4 m ρ c = V at e0 ⊢
  simp only [hostOps1]
  after_results_simp
  exact e0
theorem W5_arg5 : W5 m ρ c (Proc.devRef .tc main_arg5) = m ((c : Thread nD τ).loc main_arg5) := by
  have e0 := W4_arg5 m ρ c
  show StableHlo.after hostOps1 (W4 m ρ c) (Proc.devRef .tc main_arg5) = _
  generalize W4 m ρ c = V at e0 ⊢
  simp only [hostOps1]
  after_results_simp
  exact e0

/-! ## The messages -/

/-- The second region scales every gathered row by its edge's normalisation. -/
theorem W6_v39 : W6 m ρ c (Proc.devRef .tc main_v39) = Cert.ReferenceIdeal.ReadP.val_main_v40 (F := Ideal) (m ((c : Thread nD τ).loc main_arg0)) (m ((c : Thread nD τ).loc main_arg1)) (m ((c : Thread nD τ).loc main_arg2)) := by
  refine (W6_arr m ρ c 2).trans ((Cert.KernelIdeal.Region1.final (V5 m ρ) c).trans ?_)
  rw [show V5 m ρ c main_v38 = _ from W5_v38 m ρ c, show V5 m ρ c main_v30 = _ from W5_v30 m ρ c]
  exact (Cert.ReferenceIdeal.Stages.v40_eq _ _ _).symm
theorem W6_v3 : W6 m ρ c (Proc.devRef .tc main_v3) = Cert.ReferenceIdeal.ReadP.val_main_v3 (F := Ideal) (m ((c : Thread nD τ).loc main_arg1)) :=
  (W6_of_ne m ρ c main_v3 (by decide)).trans (W5_v3 m ρ c)
theorem W6_v6 : W6 m ρ c (Proc.devRef .tc main_v6) = Cert.ReferenceIdeal.ReadP.val_main_v6 (F := Ideal) (m ((c : Thread nD τ).loc main_arg1)) :=
  (W6_of_ne m ρ c main_v6 (by decide)).trans (W5_v6 m ρ c)
/-- The normalisation is the second region's own second operand: an input window's array is left as it was. -/
theorem W6_v30 : W6 m ρ c (Proc.devRef .tc main_v30) = Cert.Spec.col (Cert.ReferenceIdeal.ReadP.val_main_v30 (F := Ideal) (m ((c : Thread nD τ).loc main_arg1))) :=
  ((W6_arr m ρ c 1).trans (((dat1 (V5 m ρ) c).arrAt_in 1 rfl _).trans (A_eq1 (V5 m ρ) c 1))).trans (W5_v30 m ρ c)
theorem W6_arg3 : W6 m ρ c (Proc.devRef .tc main_arg3) = m ((c : Thread nD τ).loc main_arg3) :=
  (W6_of_ne m ρ c main_arg3 (by decide)).trans (W5_arg3 m ρ c)
theorem W6_arg4 : W6 m ρ c (Proc.devRef .tc main_arg4) = m ((c : Thread nD τ).loc main_arg4) :=
  (W6_of_ne m ρ c main_arg4 (by decide)).trans (W5_arg4 m ρ c)
theorem W6_arg5 : W6 m ρ c (Proc.devRef .tc main_arg5) = m ((c : Thread nD τ).loc main_arg5) :=
  (W6_of_ne m ρ c main_arg5 (by decide)).trans (W5_arg5 m ρ c)

/-! ## The messages summed at their destinations -/

/-- The scatter-add of the messages at the edges' destinations. -/
theorem W7_v42 : W7 m ρ c (Proc.devRef .tc main_v42) = Cert.ReferenceIdeal.ReadP.val_main_v43 (F := Ideal) (m ((c : Thread nD τ).loc main_arg0)) (m ((c : Thread nD τ).loc main_arg1)) (m ((c : Thread nD τ).loc main_arg2)) := by
  have e0 := W6_v39 m ρ c
  have e1 := W6_v6 m ρ c
  show StableHlo.after hostOps2 (W6 m ρ c) (Proc.devRef .tc main_v42) = _
  generalize W6 m ρ c = V at e0 e1 ⊢
  simp only [hostOps2]
  after_results_simp
  rw [e0, e1]
  simp only [Cert.ReferenceIdeal.ReadP.val_main_v43, Cert.ReferenceIdeal.ReadP.val_main_v42, Cert.ReferenceIdeal.ReadP.val_main_v41, Cert.ReferenceIdeal.ReadP.val_main_cst_8]
  generalize Cert.ReferenceIdeal.ReadP.val_main_v40 (F := Ideal) (m ((c : Thread nD τ).loc main_arg0)) (m ((c : Thread nD τ).loc main_arg1)) (m ((c : Thread nD τ).loc main_arg2)) = a0
  generalize Cert.ReferenceIdeal.ReadP.val_main_v6 (F := Ideal) (m ((c : Thread nD τ).loc main_arg1)) = a1
  rfl
theorem W7_v3 : W7 m ρ c (Proc.devRef .tc main_v3) = Cert.ReferenceIdeal.ReadP.val_main_v3 (F := Ideal) (m ((c : Thread nD τ).loc main_arg1)) := by
  have e0 := W6_v3 m ρ c
  show StableHlo.after hostOps2 (W6 m ρ c) (Proc.devRef .tc main_v3) = _
  generalize W6 m ρ c = V at e0 ⊢
  simp only [hostOps2]
  after_results_simp
  exact e0
theorem W7_v6 : W7 m ρ c (Proc.devRef .tc main_v6) = Cert.ReferenceIdeal.ReadP.val_main_v6 (F := Ideal) (m ((c : Thread nD τ).loc main_arg1)) := by
  have e0 := W6_v6 m ρ c
  show StableHlo.after hostOps2 (W6 m ρ c) (Proc.devRef .tc main_v6) = _
  generalize W6 m ρ c = V at e0 ⊢
  simp only [hostOps2]
  after_results_simp
  exact e0
theorem W7_v30 : W7 m ρ c (Proc.devRef .tc main_v30) = Cert.Spec.col (Cert.ReferenceIdeal.ReadP.val_main_v30 (F := Ideal) (m ((c : Thread nD τ).loc main_arg1))) := by
  have e0 := W6_v30 m ρ c
  show StableHlo.after hostOps2 (W6 m ρ c) (Proc.devRef .tc main_v30) = _
  generalize W6 m ρ c = V at e0 ⊢
  simp only [hostOps2]
  after_results_simp
  exact e0
theorem W7_arg3 : W7 m ρ c (Proc.devRef .tc main_arg3) = m ((c : Thread nD τ).loc main_arg3) := by
  have e0 := W6_arg3 m ρ c
  show StableHlo.after hostOps2 (W6 m ρ c) (Proc.devRef .tc main_arg3) = _
  generalize W6 m ρ c = V at e0 ⊢
  simp only [hostOps2]
  after_results_simp
  exact e0
theorem W7_arg4 : W7 m ρ c (Proc.devRef .tc main_arg4) = m ((c : Thread nD τ).loc main_arg4) := by
  have e0 := W6_arg4 m ρ c
  show StableHlo.after hostOps2 (W6 m ρ c) (Proc.devRef .tc main_arg4) = _
  generalize W6 m ρ c = V at e0 ⊢
  simp only [hostOps2]
  after_results_simp
  exact e0
theorem W7_arg5 : W7 m ρ c (Proc.devRef .tc main_arg5) = m ((c : Thread nD τ).loc main_arg5) := by
  have e0 := W6_arg5 m ρ c
  show StableHlo.after hostOps2 (W6 m ρ c) (Proc.devRef .tc main_arg5) = _
  generalize W6 m ρ c = V at e0 ⊢
  simp only [hostOps2]
  after_results_simp
  exact e0

/-! ## The hidden layer -/

/-- The third region adds the bias and rectifies. -/
theorem W8_v43 : W8 m ρ c (Proc.devRef .tc main_v43) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (W8_arr m ρ c 2).trans ((Cert.KernelIdeal.Region2.final (V7 m ρ) c).trans ?_)
  rw [show V7 m ρ c main_v42 = _ from W7_v42 m ρ c, show V7 m ρ c main_arg3 = _ from W7_arg3 m ρ c]
  exact (Cert.ReferenceIdeal.Stages.v47_eq _ _ _ _).symm
theorem W8_v3 : W8 m ρ c (Proc.devRef .tc main_v3) = Cert.ReferenceIdeal.ReadP.val_main_v3 (F := Ideal) (m ((c : Thread nD τ).loc main_arg1)) :=
  (W8_of_ne m ρ c main_v3 (by decide)).trans (W7_v3 m ρ c)
theorem W8_v6 : W8 m ρ c (Proc.devRef .tc main_v6) = Cert.ReferenceIdeal.ReadP.val_main_v6 (F := Ideal) (m ((c : Thread nD τ).loc main_arg1)) :=
  (W8_of_ne m ρ c main_v6 (by decide)).trans (W7_v6 m ρ c)
theorem W8_v30 : W8 m ρ c (Proc.devRef .tc main_v30) = Cert.Spec.col (Cert.ReferenceIdeal.ReadP.val_main_v30 (F := Ideal) (m ((c : Thread nD τ).loc main_arg1))) :=
  (W8_of_ne m ρ c main_v30 (by decide)).trans (W7_v30 m ρ c)
theorem W8_arg4 : W8 m ρ c (Proc.devRef .tc main_arg4) = m ((c : Thread nD τ).loc main_arg4) :=
  (W8_of_ne m ρ c main_arg4 (by decide)).trans (W7_arg4 m ρ c)
theorem W8_arg5 : W8 m ρ c (Proc.devRef .tc main_arg5) = m ((c : Thread nD τ).loc main_arg5) :=
  (W8_of_ne m ρ c main_arg5 (by decide)).trans (W7_arg5 m ρ c)

end Cert.KernelIdeal.Chain

end
-- ==== Proof.Region3.lean ====
/-
  The second matrix product of the program, as one whole-array function.

  The region walks the 100000 rows of the left operand `h` in 20 blocks of 5000 rows; at each block it multiplies the
  block (5000 x 64) by the whole right operand `W2` (64 x 40) and writes the 5000 x 40 product to the same rows of the
  output.  Entry (p', q) of the product of block `t` is the sum over k of h(5000 t + p', k) * W2(k, q), which is entry
  (5000 t + p', q) of the product of the whole arrays: a row of a matrix product depends on the same row of the left
  operand only.  The 20 output blocks tile the output (row r lies in block r / 5000), so the output array after the
  region is the matrix product of the two input arrays as the region finds them.
-/
import proofs.«143910_j5222680232345_1_alg».proof.Proof.Gen.KernelIdeal.Frame
import proofs.«143910_j5222680232345_1_alg».proof.Proof.LibDense
import proofs.«143910_j5222680232345_1_alg».proof.Proof.LibBiasRow
import Idealize.ShloMosaic.Lib.Pipeline.Value

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx Cert.Dense

-- the buffer contents when the region is entered
variable (V : (c : Dev nD) → (b : Ref sig .tc) → Buf (Elt Ideal) ((c : Thread nD τ).loc b))

theorem zeros : (![0, 0] : Fin 2 → Nat) = fun _ => 0 := funext fun a => by fin_cases a <;> rfl

/-- The body's payload: the left block is cast to its own shape (the identity), both blocks change format (the identity on
    the extended reals) and are multiplied into a zero accumulator, which is the matrix product of the two blocks. -/
theorem payload_eq (x0 : Vec Ideal S5000x64 .f32) (x1 : Vec Ideal S64x40 .f32) :
    k3_pay1 x0 x1 = Cert.Dense.mm (M := 5000) (K := 64) (N := 40) x0 x1 := by
  unfold k3_pay1
  rw [shapeCast_self]
  exact Cert.Dense.matmul_zero_eq_mm (M := 5000) (K := 64) (N := 40) dot_S5000x64_S64x40_S5000x40_1_0_0_1_n_n
    rfl rfl rfl rfl rfl rfl none x0 x1

/-- The block indices over the grid: the left operand's and the output's blocks are block `t` of the rows and the only
    block of the columns; the right operand's block is the whole array. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An entry of the left operand's block at point `t`, read off the array: row `p` of the block is row `5000 t + p` of
    the array, the columns are the array's. -/
theorem left_block_apply (c : Dev nD) (t : Fin cfg3.N) (y : S5000x64.Idx) (i : S100000x64.Idx)
    (h0 : (i 0).val = 5000 * t.val + (y 0).val) (h1 : (i 1).val = (y 1).val) :
    (iblk3 V c 0 t : Vec Ideal S5000x64 .f32) y = (V c main_v43 : S100000x64.Idx → Elt Ideal .f32) i := by
  obtain ⟨e0, e1, -, -, -, -⟩ := block_indices t
  unfold iblk3
  rw [View.read_apply]
  show V c main_v43 _ = V c main_v43 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The right operand's block at any point is the whole array. -/
theorem right_block_apply (c : Dev nD) (t : Fin cfg3.N) (y : S64x40.Idx) (i : S64x40.Idx)
    (h0 : (i 0).val = (y 0).val) (h1 : (i 1).val = (y 1).val) :
    (iblk3 V c 1 t : Vec Ideal S64x40 .f32) y = (V c main_arg4 : S64x40.Idx → Elt Ideal .f32) i := by
  obtain ⟨-, -, e2, e3, -, -⟩ := block_indices t
  unfold iblk3
  rw [View.read_apply]
  show V c main_arg4 _ = V c main_arg4 _
  congr 1
  funext a
  apply Fin.ext
  match a with
  | ⟨0, _⟩ => show win3_1.index t (0 : Fin 2) * 64 + 1 * (y 0).val = (i 0).val; rw [e2, h0]; omega
  | ⟨1, _⟩ => show win3_1.index t (1 : Fin 2) * 40 + 1 * (y 1).val = (i 1).val; rw [e3, h1]; omega

/-- Where an entry of the output's block at point `t` sits in the output array. -/
theorem out_block_emb (t : Fin cfg3.N) (j : S5000x40.Idx) :
    ((((cfg3.win 2).blk t).view.emb j : S100000x40.Idx) 0).val = 5000 * t.val + (j 0).val
      ∧ ((((cfg3.win 2).blk t).view.emb j : S100000x40.Idx) 1).val = (j 1).val := by
  obtain ⟨-, -, -, -, e4, e5⟩ := block_indices t
  constructor
  · show win3_2.index t (0 : Fin 2) * 5000 + 1 * (j 0).val = _; rw [e4]; omega
  · show win3_2.index t (1 : Fin 2) * 40 + 1 * (j 1).val = _; rw [e5]; omega

/-- WHAT POINT `t` WRITES BACK is block `t` of the matrix product of the two arrays as the region finds them. -/
theorem flushed_eq (c : Dev nD) (t : Fin cfg3.N) :
    (dat3 V c).flushed 2 t = ((cfg3.win 2).blk t).view.read (Elt Ideal)
      (Cert.Dense.mm (M := 100000) (K := 64) (N := 40) (V c main_v43) (V c main_arg4)) := by
  show (cfg3.win 2).cut (grid3.coords t) ((dat3 V c).after 2 t) = _
  rw [after3_2]
  unfold out3_2
  rw [View.canon_unit_zero zeros]
  simp only [View.ld_unit_zero (S := S5000x64) zeros, View.ld_unit_zero (S := S64x40) zeros]
  rw [payload_eq]
  funext j
  obtain ⟨o0, o1⟩ := out_block_emb t j
  show Cert.Dense.mm (M := 5000) (K := 64) (N := 40) (iblk3 V c 0 t) (iblk3 V c 1 t) j
    = Cert.Dense.mm (M := 100000) (K := 64) (N := 40) (V c main_v43) (V c main_arg4) (((cfg3.win 2).blk t).view.emb j)
  refine Cert.BiasRow.mm_at _ _ _ _ j _ (fun k => ?_) (fun k => ?_)
  · exact left_block_apply V c t _ _ o0 rfl
  · exact right_block_apply V c t _ _ rfl o1

/-- An index of the output array is in point `t`'s block iff each coordinate is in the block's range on its axis. -/
theorem mem_block (t : Fin cfg3.N) (i : S100000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v44).slice (win3_2.rect t)).set ↔ _
  rw [View.set_slice_whole, Rect.mem_set_unit]
  exact Iff.rfl

/-- The output's blocks tile the output array: row `r` lies in the block of point `r / 5000`. -/
theorem cover (i : S100000x40.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 40 := (i 1).isLt
  refine ⟨⟨(i 0).val / 5000, by rw [hN]; omega⟩, flush3_2 _, ?_⟩
  rw [mem_block]
  obtain ⟨-, -, -, -, e4, e5⟩ := block_indices ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 40 ≤ (i 1).val ∧ (i 1).val < win3_2.index _ (1 : Fin 2) * 40 + 40
    rw [e5]; omega

/-- THE OUTPUT ARRAY after the region: the matrix product of the two input arrays as the region finds them. -/
theorem final (V : (c : Dev nD) → (b : Ref sig .tc) → Buf (Elt Ideal) ((c : Thread nD τ).loc b)) (c : Dev nD) :
    (Cert.KernelIdeal.Gen.dat3 V c).arrAt 2 cfg3.N = Cert.Dense.mm (V c main_v43) (V c main_arg4) :=
  (dat3 V c).arrAt_eq_of_cover 2 _ (fun t _ => flushed_eq V c t) cover

end Cert.KernelIdeal.Region3

end
-- ==== Proof.Region4.lean ====
/-
  The row-scaling region over 1700000 rows of 40 columns: the array it leaves is `scaleRows` of its two input arrays.

  The grid has 340 points. At point `t` the body sees rows `5000·t … 5000·t + 4999` of the gathered rows `X` (a
  5000 × 40 block) and the same rows of the per-row scale `s` (a 5000 × 1 block), multiplies every row of the block by
  its scale, and writes the result to rows `5000·t …` of the output. Entry `(p', q)` of the block's result is
  `X(5000·t + p', q) · s(5000·t + p', 0)`, which is entry `(5000·t + p', q)` of `scaleRows X s`; the 340 output blocks
  tile the array (row `r` lies in block `r / 5000`), so the array ends as `scaleRows X s`.
-/
import proofs.«143910_j5222680232345_1_alg».proof.Proof.Gen.KernelIdeal.Frame
import proofs.«143910_j5222680232345_1_alg».proof.Proof.LibDense
import proofs.«143910_j5222680232345_1_alg».proof.Proof.LibScaleRows
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen Cert.Dense Cert.Spec
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's result on a block of rows and the block of their scales is the rows scaled. -/
theorem body_eq (x0 : Vec Ideal S5000x40 .f32) (x1 : Vec Ideal S5000x1 .f32) :
    k4_pay1 x0 x1 = scaleRows x0 x1 := by
  unfold k4_pay1
  rw [shapeCast_self, shapeCast_self]
  exact vecScale x0 x1 broadcasts_S5000x1_S5000x40

/-- The block indices over the grid: every window's block at point `t` is block `t` along the rows and block `0`
    along the columns. -/
theorem block_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of `scaleRows` of the two input arrays. -/
theorem written_eq (c : Dev nD) (t : Fin cfg4.N) :
    (dat4 V c).flushed 2 t
      = ((cfg4.win 2).blk t).view.read (Elt Ideal) (scaleRows (V c main_v51) (V c main_v30)) := by
  show (cfg4.win 2).cut (grid4.coords t) ((dat4 V c).after 2 t) = _
  rw [after4_2]
  unfold out4_2
  rw [View.canon_unit_zero origin]
  simp only [View.ld_unit_zero (S := S5000x40) origin, View.ld_unit_zero (S := S5000x1) origin]
  rw [body_eq]
  obtain ⟨e0, e1, e2, e3, e4, e5⟩ := block_index t
  funext j
  show scaleRows (iblk4 V c 0 t) (iblk4 V c 1 t) j
      = scaleRows (V c main_v51) (V c main_v30) (((cfg4.win 2).blk t).view.emb j)
  refine scaleRows_at (V c main_v51) (V c main_v30) (iblk4 V c 0 t) (iblk4 V c 1 t) j _ ?_ ?_
  · show V c main_v51 (((cfg4.win 0).blk t).view.emb j) = V c main_v51 (((cfg4.win 2).blk t).view.emb j)
    refine congrArg (V c main_v51) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 40 + 1 * (j 1).val = win4_2.index t (1 : Fin 2) * 40 + 1 * (j 1).val
      omega
  · show V c main_v30 (((cfg4.win 1).blk t).view.emb (ix2 (c0 j) (0 : Fin 1)))
        = V c main_v30 (ix2 (c0 (((cfg4.win 2).blk t).view.emb j)) (0 : Fin 1))
    refine congrArg (V c main_v30) (funext fun a => Fin.ext ?_)
    match a with
    | ⟨0, _⟩ =>
      show win4_1.index t (0 : Fin 2) * 5000 + 1 * (j 0).val = win4_2.index t (0 : Fin 2) * 5000 + 1 * (j 0).val
      omega
    | ⟨1, _⟩ =>
      show win4_1.index t (1 : Fin 2) * 1 + 1 * 0 = 0
      omega

/-- An index of the output array lies in point `t`'s block iff each coordinate lies in the block's range. -/
theorem mem_block (t : Fin cfg4.N) (i : S1700000x40.Idx) :
    i ∈ ((cfg4.win 2).blk t).view.set ↔ ∀ a : Fin 2, win4_2.index t a * S5000x40.size a ≤ (i a).val
      ∧ (i a).val < win4_2.index t a * S5000x40.size a + S5000x40.size a := by
  show i ∈ ((View.whole main_v52).slice (win4_2.rect t)).set ↔ _
  rw [View.set_slice_whole, Rect.mem_set_unit]
  exact Iff.rfl

/-- Every index of the output array lies in the block of the point `row / 5000`. -/
theorem covered (i : S1700000x40.Idx) :
    ∃ t : Fin cfg4.N, (cfg4.win 2).flush t = true ∧ i ∈ ((cfg4.win 2).blk t).view.set := by
  have hi0 : (i 0).val < 1700000 := (i 0).isLt
  have hi1 : (i 1).val < 40 := (i 1).isLt
  have hN : cfg4.N = 340 := rfl
  let t : Fin cfg4.N := ⟨(i 0).val / 5000, by rw [hN]; omega⟩
  obtain ⟨e0, e1, e2, e3, e4, e5⟩ := block_index t
  have ht : t.val = (i 0).val / 5000 := rfl
  refine ⟨t, flush4_2 t, ?_⟩
  rw [mem_block]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 40 ≤ (i 1).val ∧ (i 1).val < win4_2.index t (1 : Fin 2) * 40 + 40
    omega

/-- The output array after the region: the gathered rows, each scaled by its own scale. -/
theorem final (c : Dev nD) :
    (dat4 V c).arrAt 2 cfg4.N = scaleRows (V c main_v51) (V c main_v30) :=
  (dat4 V c).arrAt_eq_of_cover 2 _ (fun t _ => written_eq V c t) (covered)

end Cert.KernelIdeal.Region4

end
-- ==== Proof.Region5.lean ====
/-
  The biased row-wise log-softmax, region by blocks to the whole array.

  The region's body adds a 40-vector, laid out as one row, to every row of a block of 5000 rows, and takes the
  logarithm of the row softmax in its shifted form: with z = x + b and m the row maximum of z taken from −∞, the entry is
  (z − m) − log (sum over the row of exp (z − m)).  Its grid has 20 points; at point t the input block and the output
  block are rows 5000·t … 5000·t + 4999 of their 100000-row arrays and the vector is taken whole.  Row p' of the result
  for a block depends on row p' of the block only, which is row 5000·t + p' of the input array, so the block the body
  leaves at point t is block t of the biased log-softmax of the whole input array; the 20 blocks cover the output array,
  which therefore ends holding the biased log-softmax of the whole input array.
-/
import proofs.«143910_j5222680232345_1_alg».proof.Proof.Gen.KernelIdeal.Frame
import proofs.«143910_j5222680232345_1_alg».proof.Proof.LibDense
import proofs.«143910_j5222680232345_1_alg».proof.Proof.LibBiasRow
import proofs.«143910_j5222680232345_1_alg».proof.Proof.LibRowBlocks
import proofs.«143910_j5222680232345_1_alg».proof.Proof.LibLogSoftmax
import proofs.«143910_j5222680232345_1_alg».proof.Proof.LibScaleRows
import Idealize.ShloMosaic.Lib.Pipeline.Value

set_option maxRecDepth 16384

noncomputable section

namespace Cert.KernelIdeal.Region5

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a rank-2 block, as a constant function. -/
theorem zeros2 : (![0, 0] : Fin 2 → Nat) = fun _ => 0 := funext fun a => by fin_cases a <;> rfl
/-- The zero offset of a rank-1 block, as a constant function. -/
theorem zeros1 : (![0] : Fin 1 → Nat) = fun _ => 0 := funext fun a => by fin_cases a; rfl

/-! ## The body's payload -/

/-- Every row's maximum from −∞, spread along that row: a lane maximum, cast to a column, broadcast. -/
def colMax (X : FVec Ideal S5000x40 .f32) : FVec Ideal S5000x40 .f32 :=
  broadcastTo S5000x40 (shapeCast S5000x1
    (multiReduction (F := Ideal) .maximumf [1] S5000 X 0xFF800000#32 reduces_S5000x40_S5000 (.inl rfl) rfl)
    shapeCasts_S5000_S5000x1) broadcasts_S5000x1_S5000x40

/-- The logarithm of every row's sum of exp (X − its maximum), spread along that row. -/
def colLogSum (X : FVec Ideal S5000x40 .f32) : FVec Ideal S5000x40 .f32 :=
  broadcastTo S5000x40 (log (shapeCast S5000x1
    (multiReduction (F := Ideal) .add [1] S5000 (exp (subf X (colMax X))) 0x00000000#32 reduces_S5000x40_S5000 (.inl rfl) rfl)
    shapeCasts_S5000_S5000x1)) broadcasts_S5000x1_S5000x40

/-- The shifted log-softmax as the vector unit spells it. -/
def vecLsm (X : FVec Ideal S5000x40 .f32) : FVec Ideal S5000x40 .f32 := subf (subf X (colMax X)) (colLogSum X)

/-- It is the row-wise log-softmax. -/
theorem vecLsm_eq (X : FVec Ideal S5000x40 .f32) : vecLsm X = Cert.LogSoftmax.lsm (n := 5000) (c := 40) X := by
  refine Eq.trans ?_ (Cert.LogSoftmax.lsm_of_parts (n := 5000) (c := 40) X (colMax X) (colLogSum X) (fun p k => ?_) (fun p k => ?_))
  · rfl
  · exact Cert.LogSoftmax.vecColMax (n := 5000) (c := 40) X reduces_S5000x40_S5000 (.inl rfl) rfl
      shapeCasts_S5000_S5000x1 broadcasts_S5000x1_S5000x40 p k
  · exact Cert.LogSoftmax.vecColLogSum (n := 5000) (c := 40) (exp (subf X (colMax X))) reduces_S5000x40_S5000 (.inl rfl) rfl
      shapeCasts_S5000_S5000x1 broadcasts_S5000x1_S5000x40 p k

/-- The body's payload: the vector laid out as a row and added to every row of the block, then the row-wise log-softmax. -/
theorem pay_eq (x0 : Vec Ideal S5000x40 .f32) (x1 : Vec Ideal S40 .f32) :
    k5_pay1 x0 x1 = Cert.Spec.lsmBias (n := 5000) (c := 40) x0 (Cert.Dense.row (N := 40) x1) := by
  have hz : addf (F := Ideal) (φ := .f32) (shapeCast S5000x40 x0 shapeCasts_S5000x40_S5000x40)
      (broadcastTo S5000x40 (shapeCast S1x40 x1 shapeCasts_S40_S1x40) broadcasts_S1x40_S5000x40)
      = Cert.BiasRow.addRow (M := 5000) (N := 40) x0 (Cert.Dense.row (N := 40) x1) := by
    rw [shapeCast_self, Cert.Dense.shapeCast_row]
    exact Cert.BiasRow.vecAddRow (M := 5000) (N := 40) x0 (Cert.Dense.row (N := 40) x1) broadcasts_S1x40_S5000x40
  show vecLsm (addf (F := Ideal) (φ := .f32) (shapeCast S5000x40 x0 shapeCasts_S5000x40_S5000x40)
      (broadcastTo S5000x40 (shapeCast S1x40 x1 shapeCasts_S40_S1x40) broadcasts_S1x40_S5000x40)) = _
  rw [hz, vecLsm_eq]
  rfl

/-! ## From blocks to the array -/

/-- Block against array: an entry of the biased log-softmax of a block is the entry of that of the whole array in the
    same column, when the block's row is the array's row there and the two vectors are the same. -/
theorem block_at (X : Vec Ideal S100000x40 .f32) (b : Vec Ideal S40 .f32) (x0 : Vec Ideal S5000x40 .f32) (x1 : Vec Ideal S40 .f32)
    (j : S5000x40.Idx) (i : S100000x40.Idx)
    (h0 : ∀ k : Fin 40, x0 (ix2 (Cert.Dense.c0 (a := 5000) (b := 40) j) k) = X (ix2 (Cert.Dense.c0 (a := 100000) (b := 40) i) k))
    (hcol : (i 1).val = (j 1).val) (h1 : x1 = b) :
    Cert.Spec.lsmBias (n := 5000) (c := 40) x0 (Cert.Dense.row (N := 40) x1) j
      = Cert.Spec.lsmBias (n := 100000) (c := 40) X (Cert.Dense.row (N := 40) b) i := by
  subst h1
  have ej : j = ix2 (Cert.Dense.c0 (a := 5000) (b := 40) j) (Cert.Dense.c1 (a := 5000) (b := 40) j) :=
    funext fun a => Fin.ext (by
      match a with
      | ⟨0, _⟩ => rfl
      | ⟨1, _⟩ => rfl)
  have ei : i = ix2 (Cert.Dense.c0 (a := 100000) (b := 40) i) (Cert.Dense.c1 (a := 5000) (b := 40) j) :=
    funext fun a => Fin.ext (by
      match a with
      | ⟨0, _⟩ => rfl
      | ⟨1, _⟩ => exact hcol)
  exact (congrArg (Cert.Spec.lsmBias (n := 5000) (c := 40) x0 (Cert.Dense.row (N := 40) x1)) ej).trans
    ((Cert.Spec.lsmBias_rows (n := 100000) (n' := 5000) (c := 40) X x0 (Cert.Dense.row (N := 40) x1)
        (Cert.Dense.c0 (a := 100000) (b := 40) i) (Cert.Dense.c0 (a := 5000) (b := 40) j) h0
        (Cert.Dense.c1 (a := 5000) (b := 40) j)).trans
      (congrArg (Cert.Spec.lsmBias (n := 100000) (c := 40) X (Cert.Dense.row (N := 40) x1)) ei).symm)

/-- The printed index maps, decided over the 20 grid points: the input block and the output block sit at block row
    t, block column 0; the vector is taken at block 0. -/
theorem idx_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What grid point t writes back is block t of the biased log-softmax of the whole input array. -/
theorem flushed_eq (c : Dev nD) (t : Fin cfg5.N) :
    (dat5 V c).flushed 2 t = ((cfg5.win 2).blk t).view.read (Elt Ideal)
      (Cert.Spec.lsmBias (n := 100000) (c := 40) (V c main_v55) (Cert.Dense.row (N := 40) (V c main_arg5))) := by
  show (cfg5.win 2).cut (grid5.coords t) ((dat5 V c).after 2 t) = _
  rw [after5_2]
  unfold out5_2
  rw [View.canon_unit_zero zeros2]
  simp only [View.ld_unit_zero (S := S5000x40) zeros2, View.ld_unit_zero (S := S40) zeros1]
  rw [pay_eq]
  obtain ⟨e00, e01, e10, e20, e21⟩ := idx_facts t
  funext j
  refine block_at (V c main_v55) (V c main_arg5) (iblk5 V c 0 t) (iblk5 V c 1 t) j (((cfg5.win 2).blk t).view.emb j) ?_ ?_ ?_
  · intro k
    show V c main_v55 (((cfg5.win 0).blk t).view.emb (ix2 (Cert.Dense.c0 (a := 5000) (b := 40) j) k))
      = V c main_v55 (ix2 (Cert.Dense.c0 (a := 100000) (b := 40) (((cfg5.win 2).blk t).view.emb j)) k)
    refine congrArg _ (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 40 + 1 * k.val = k.val; omega
  · show win5_2.index t (1 : Fin 2) * 40 + 1 * (j 1).val = (j 1).val
    omega
  · funext y
    show V c main_arg5 (((cfg5.win 1).blk t).view.emb y) = V c main_arg5 y
    refine congrArg _ (funext fun a => Fin.ext ?_)
    match a with
    | ⟨0, _⟩ => show win5_1.index t (0 : Fin 1) * 40 + 1 * (y 0).val = (y 0).val; omega

/-- An index of the output array is in point t's block iff each coordinate is in the block's range on its axis. -/
theorem mem_blk (t : Fin cfg5.N) (i : S100000x40.Idx) :
    i ∈ ((cfg5.win 2).blk t).view.set ↔ ∀ a : Fin 2, win5_2.index t a * S5000x40.size a ≤ (i a).val
      ∧ (i a).val < win5_2.index t a * S5000x40.size a + S5000x40.size a := by
  show i ∈ ((View.whole main_v56).slice (win5_2.rect t)).set ↔ _
  rw [View.set_slice_whole, Rect.mem_set_unit]
  exact Iff.rfl

/-- Every index of the output array is in some point's block: row r is in block r / 5000. -/
theorem cover (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  have hN : cfg5.N = 20 := rfl
  let t : Fin cfg5.N := ⟨(i 0).val / 5000, by rw [hN]; omega⟩
  have ht : t.val = (i 0).val / 5000 := rfl
  obtain ⟨e00, e01, e10, e20, e21⟩ := idx_facts t
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 40 ≤ (i 1).val ∧ (i 1).val < win5_2.index t (1 : Fin 2) * 40 + 40; omega

/-- The output array after the region is the biased row-wise log-softmax of the whole input array. -/
theorem final (V : (c : Dev nD) → (b : Ref sig .tc) → Buf (Elt Ideal) ((c : Thread nD τ).loc b)) (c : Dev nD) :
    (Cert.KernelIdeal.Gen.dat5 V c).arrAt 2 cfg5.N = Cert.Spec.lsmBias (V c main_v55) (Cert.Dense.row (V c main_arg5)) :=
  (dat5 V c).arrAt_eq_of_cover 2 _ (fun t _ => flushed_eq V c t) cover

end Cert.KernelIdeal.Region5

end
-- ==== Proof.ChainC.lean ====
/-
  The idealized kernel program's buffers through its second layer, and its result, as the reference's own stages.

  The fourth region leaves `h W₂`; the host gathers its rows along the edges; the fifth region scales them by the same
  normalisation; the host sums them at their destinations; the last region adds the bias and takes the row-wise
  log-softmax. The result buffer ends holding the reference's result of the same arguments.
-/
import proofs.«143910_j5222680232345_1_alg».proof.Proof.Gen.KernelIdeal.Frame
import proofs.«143910_j5222680232345_1_alg».proof.Proof.ChainB
import proofs.«143910_j5222680232345_1_alg».proof.Proof.Region3
import proofs.«143910_j5222680232345_1_alg».proof.Proof.Region4
import proofs.«143910_j5222680232345_1_alg».proof.Proof.Region5
import proofs.«143910_j5222680232345_1_alg».proof.Proof.RefStages
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The second dense product -/

/-- The fourth region leaves the matrix product of the hidden layer and the second weight. -/
theorem W9_v44 : W9 m ρ c (Proc.devRef .tc main_v44) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W9_arr m ρ c 2).trans ((Cert.KernelIdeal.Region3.final (V8 m ρ) c).trans ?_)
  rw [show V8 m ρ c main_v43 = _ from W8_v43 m ρ c, show V8 m ρ c main_arg4 = _ from W8_arg4 m ρ c]
  exact (Cert.ReferenceIdeal.Stages.v48_eq _ _ _ _ _).symm
theorem W9_v3 : W9 m ρ c (Proc.devRef .tc main_v3) = Cert.ReferenceIdeal.ReadP.val_main_v3 (F := Ideal) (m ((c : Thread nD τ).loc main_arg1)) :=
  (W9_of_ne m ρ c main_v3 (by decide)).trans (W8_v3 m ρ c)
theorem W9_v6 : W9 m ρ c (Proc.devRef .tc main_v6) = Cert.ReferenceIdeal.ReadP.val_main_v6 (F := Ideal) (m ((c : Thread nD τ).loc main_arg1)) :=
  (W9_of_ne m ρ c main_v6 (by decide)).trans (W8_v6 m ρ c)
theorem W9_v30 : W9 m ρ c (Proc.devRef .tc main_v30) = Cert.Spec.col (Cert.ReferenceIdeal.ReadP.val_main_v30 (F := Ideal) (m ((c : Thread nD τ).loc main_arg1))) :=
  (W9_of_ne m ρ c main_v30 (by decide)).trans (W8_v30 m ρ c)
theorem W9_arg5 : W9 m ρ c (Proc.devRef .tc main_arg5) = m ((c : Thread nD τ).loc main_arg5) :=
  (W9_of_ne m ρ c main_arg5 (by decide)).trans (W8_arg5 m ρ c)

/-! ## Its rows gathered along the edges -/

/-- The rows of the product at the edges' sources. -/
theorem W10_v51 : W10 m ρ c (Proc.devRef .tc main_v51) = Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e0 := W9_v44 m ρ c
  have e1 := W9_v3 m ρ c
  show StableHlo.after hostOps4 (W9 m ρ c) (Proc.devRef .tc main_v51) = _
  generalize W9 m ρ c = V at e0 e1 ⊢
  simp only [hostOps4]
  after_results_simp
  rw [e0, e1]
  simp only [Cert.ReferenceIdeal.ReadP.val_main_v78, Cert.ReferenceIdeal.ReadP.val_main_v77, Cert.ReferenceIdeal.ReadP.val_main_v76, Cert.ReferenceIdeal.ReadP.val_main_v75, Cert.ReferenceIdeal.ReadP.val_main_v74, Cert.ReferenceIdeal.ReadP.val_main_v73, Cert.ReferenceIdeal.ReadP.val_main_v72, Cert.ReferenceIdeal.ReadP.val_main_c_18, Cert.ReferenceIdeal.ReadP.val_main_c_17]
  generalize Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = a0
  generalize Cert.ReferenceIdeal.ReadP.val_main_v3 (F := Ideal) (m ((c : Thread nD τ).loc main_arg1)) = a1
  rfl
theorem W10_v6 : W10 m ρ c (Proc.devRef .tc main_v6) = Cert.ReferenceIdeal.ReadP.val_main_v6 (F := Ideal) (m ((c : Thread nD τ).loc main_arg1)) := by
  have e0 := W9_v6 m ρ c
  show StableHlo.after hostOps4 (W9 m ρ c) (Proc.devRef .tc main_v6) = _
  generalize W9 m ρ c = V at e0 ⊢
  simp only [hostOps4]
  after_results_simp
  exact e0
theorem W10_v30 : W10 m ρ c (Proc.devRef .tc main_v30) = Cert.Spec.col (Cert.ReferenceIdeal.ReadP.val_main_v30 (F := Ideal) (m ((c : Thread nD τ).loc main_arg1))) := by
  have e0 := W9_v30 m ρ c
  show StableHlo.after hostOps4 (W9 m ρ c) (Proc.devRef .tc main_v30) = _
  generalize W9 m ρ c = V at e0 ⊢
  simp only [hostOps4]
  after_results_simp
  exact e0
theorem W10_arg5 : W10 m ρ c (Proc.devRef .tc main_arg5) = m ((c : Thread nD τ).loc main_arg5) := by
  have e0 := W9_arg5 m ρ c
  show StableHlo.after hostOps4 (W9 m ρ c) (Proc.devRef .tc main_arg5) = _
  generalize W9 m ρ c = V at e0 ⊢
  simp only [hostOps4]
  after_results_simp
  exact e0

/-! ## The messages -/

/-- The fifth region scales every gathered row by its edge's normalisation. -/
theorem W11_v52 : W11 m ρ c (Proc.devRef .tc main_v52) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W11_arr m ρ c 2).trans ((Cert.KernelIdeal.Region4.final (V10 m ρ) c).trans ?_)
  rw [show V10 m ρ c main_v51 = _ from W10_v51 m ρ c, show V10 m ρ c main_v30 = _ from W10_v30 m ρ c]
  exact (Cert.ReferenceIdeal.Stages.v81_eq _ _ _ _ _).symm
theorem W11_v6 : W11 m ρ c (Proc.devRef .tc main_v6) = Cert.ReferenceIdeal.ReadP.val_main_v6 (F := Ideal) (m ((c : Thread nD τ).loc main_arg1)) :=
  (W11_of_ne m ρ c main_v6 (by decide)).trans (W10_v6 m ρ c)
theorem W11_arg5 : W11 m ρ c (Proc.devRef .tc main_arg5) = m ((c : Thread nD τ).loc main_arg5) :=
  (W11_of_ne m ρ c main_arg5 (by decide)).trans (W10_arg5 m ρ c)

/-! ## The messages summed at their destinations -/

/-- The scatter-add of the messages at the edges' destinations. -/
theorem W12_v55 : W12 m ρ c (Proc.devRef .tc main_v55) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e0 := W11_v52 m ρ c
  have e1 := W11_v6 m ρ c
  show StableHlo.after hostOps5 (W11 m ρ c) (Proc.devRef .tc main_v55) = _
  generalize W11 m ρ c = V at e0 e1 ⊢
  simp only [hostOps5]
  after_results_simp
  rw [e0, e1]
  simp only [Cert.ReferenceIdeal.ReadP.val_main_v84, Cert.ReferenceIdeal.ReadP.val_main_v83, Cert.ReferenceIdeal.ReadP.val_main_v82, Cert.ReferenceIdeal.ReadP.val_main_cst_19]
  generalize Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = a0
  generalize Cert.ReferenceIdeal.ReadP.val_main_v6 (F := Ideal) (m ((c : Thread nD τ).loc main_arg1)) = a1
  rfl
theorem W12_arg5 : W12 m ρ c (Proc.devRef .tc main_arg5) = m ((c : Thread nD τ).loc main_arg5) := by
  have e0 := W11_arg5 m ρ c
  show StableHlo.after hostOps5 (W11 m ρ c) (Proc.devRef .tc main_arg5) = _
  generalize W11 m ρ c = V at e0 ⊢
  simp only [hostOps5]
  after_results_simp
  exact e0

/-! ## The result -/

/-- The last region adds the bias and takes the row-wise log-softmax: the reference's result. -/
theorem W13_v56 : W13 m ρ c (Proc.devRef .tc main_v56) = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W13_arr m ρ c 2).trans ((Cert.KernelIdeal.Region5.final (V12 m ρ) c).trans ?_)
  rw [show V12 m ρ c main_v55 = _ from W12_v55 m ρ c, show V12 m ρ c main_arg5 = _ from W12_arg5 m ρ c]
  exact (Cert.ReferenceIdeal.Stages.v88_eq _ _ _ _ _ _).symm

end Cert.KernelIdeal.Chain

end
-- ==== Proof.lean ====
/-
  A two-layer graph convolution with a row-wise log-softmax, computed by six vector-unit regions among host operations,
  against its plain reference: the two idealized programs return the same array on the extended reals.

  Both programs append the self loops to the edge list, take the in-degree `d` of every node as a scatter-add of ones,
  the guarded inverse square root `where (d > 0, d^(-1/2), 0)`, and the normalisation of an edge as the product of the
  two gathered values at its ends. A layer is `(x W)` gathered along the edges' sources, every gathered row scaled by its
  edge's normalisation, the scaled rows summed at the edges' destinations, and a bias added to every row; the first
  layer is rectified, the second goes through the shifted row-wise log-softmax. The kernel program hands six of these
  steps to regions that walk their arrays in blocks of 5000 rows — the two matrix products (its operands' format
  changed on the way, which is the identity on the extended reals), the two row scalings, the rectified bias and the
  biased log-softmax — and keeps the gathers and the scatter-adds on the host, operation for operation as the reference
  has them. Each region's output array is one whole-array function of its input arrays, because an output row depends
  on the same row of the row-blocked operand only and the blocks tile the array (Proof/Region0 … Region5); these six
  functions are the reference's own stages (Proof/RefStages); and every other buffer either program writes is written by
  the same operation of the same earlier buffers (Proof/ChainA … ChainC, against the reference's run, Proof/RefRun). No law
  of arithmetic beyond this reading is used, so the precondition is never opened. The ideal pass rewrote nothing, so
  `preserves` has no conjunct. The three frames: the two kernel programs' are the generated frame certificates, the
  reference's is its run with the result dropped.
-/
import proofs.«143910_j5222680232345_1_alg».proof.Defs
import proofs.«143910_j5222680232345_1_alg».proof.Proof.Gen.Kernel
import proofs.«143910_j5222680232345_1_alg».proof.Proof.Gen.Kernel.Skeleton
import proofs.«143910_j5222680232345_1_alg».proof.Proof.Gen.Kernel.Launch
import proofs.«143910_j5222680232345_1_alg».proof.Proof.Gen.Kernel.Points
import proofs.«143910_j5222680232345_1_alg».proof.Proof.Gen.Kernel.Frame
import proofs.«143910_j5222680232345_1_alg».proof.Proof.Gen.KernelIdeal
import proofs.«143910_j5222680232345_1_alg».proof.Proof.Gen.KernelIdeal.Skeleton
import proofs.«143910_j5222680232345_1_alg».proof.Proof.Gen.KernelIdeal.Launch
import proofs.«143910_j5222680232345_1_alg».proof.Proof.Gen.KernelIdeal.Points
import proofs.«143910_j5222680232345_1_alg».proof.Proof.Gen.KernelIdeal.Frame
import proofs.«143910_j5222680232345_1_alg».proof.Proof.Gen.ReferenceIdeal
import proofs.«143910_j5222680232345_1_alg».proof.Proof.Gen.Pre_finite_inputs
import proofs.«143910_j5222680232345_1_alg».proof.Proof.RunP
import proofs.«143910_j5222680232345_1_alg».proof.Proof.ReadP
import proofs.«143910_j5222680232345_1_alg».proof.Proof.RefRun
import proofs.«143910_j5222680232345_1_alg».proof.Proof.NamedRun
import proofs.«143910_j5222680232345_1_alg».proof.Proof.ChainC
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both idealized programs run, and end with the same result array: the
    kernel program's result buffer holds the reference's last stage of the kernel's arguments, the reference's holds
    that stage of its own, and the arguments agree. -/
theorem algebraic : Cert.algebraic_KernelIdeal_ReferenceIdeal := by
  intro m ρ m' ρ' _ hagree
  refine ⟨fun c => Cert.KernelIdeal.Gen.W13 m ρ c (Proc.devRef .tc Cert.KernelIdeal.main_v56),
    Cert.KernelIdeal.NamedRun.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5⟩ := hagree c
  rw [h0, h1, h2, h3, h4, h5]
  exact (Cert.KernelIdeal.Chain.W13_v56 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
